-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x256x64 : Shape := ⟨4, ![4, 512, 256, 64]⟩
abbrev S4x256 : Shape := ⟨2, ![4, 256]⟩
abbrev S_ : Shape := ⟨0, ![]⟩
abbrev S512 : Shape := ⟨1, ![512]⟩
abbrev S512x768 : Shape := ⟨2, ![512, 768]⟩

class Facts : Prop where
  bcast_S_S4x512x256x64 : S_.BroadcastsInDim S4x512x256x64 (![] : Fin 0 → Fin S4x512x256x64.rank)
  reducesTo_S4x512x256x64_S_d0_1_2_3 : S4x512x256x64.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_
  reducesTo_S_S_d : S_.ReducesTo [] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_

variable [Facts]

def fn_part2 {F : FTy → Type} [FloatOps F] (main_arg8 : FVec F S512 .f32) (main_arg9 : FVec F S512 .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S512 .f32 := Host.absf main_arg8
  let main_cst_14 : FVec F S_ .f32 := constant S_ .f32 0x7F800000#32
  let main_v38 : FVec F S512 .f32 := broadcastInDim S512 ![] bcast_S_S512 main_cst_14
  let main_v39 : IVec S512 1 := cmpf .olt main_v37 main_v38
  let main_c_15 : IVec S_ 1 := constantI S_ 1 1#1
  let main_v40 : IVec S_ 1 := (fun x v => Host.reduce IntOp.andi x v reducesTo_S512_S_d0 h_S_) main_v39 main_c_15
  let main_v41 : IVec S_ 1 := andi main_v36 main_v40
  let main_v42 : FVec F S512 .f32 := Host.absf main_arg9
  let main_cst_16 : FVec F S_ .f32 := constant S_ .f32 0x7F800000#32
  let main_v43 : FVec F S512 .f32 := broadcastInDim S512 ![] bcast_S_S512 main_cst_16
  let main_v44 : IVec S512 1 := cmpf .olt main_v42 main_v43
  let main_c_17 : IVec S_ 1 := constantI S_ 1 1#1
  let main_v45 : IVec S_ 1 := (fun x v => Host.reduce IntOp.andi x v reducesTo_S512_S_d0 h_S_) main_v44 main_c_17
  let main_v46 : IVec S_ 1 := andi main_v41 main_v45
  main_v46

def fn_part1 {F : FTy → Type} [FloatOps F] (main_arg4 : FVec F S512 .f32) (main_arg5 : FVec F S512x768 .f32) (main_arg6 : FVec F S512 .f32) (main_arg7 : FVec F S_ .f32) (main_arg8 : FVec F S512 .f32) (main_arg9 : FVec F S512 .f32) (main_v12 : IVec S_ 1) (main_v15 : IVec S512 1) (main_c_5 : IVec S_ 1) : IVec S_ 1 :=
  let main_v16 : IVec S_ 1 := (fun x v => Host.reduce IntOp.andi x v reducesTo_S512_S_d0 h_S_) main_v15 main_c_5
  let main_v17 : IVec S_ 1 := andi main_v12 main_v16
  let main_v18 : FVec F S512 .f32 := Host.absf main_arg4
  let main_cst_6 : FVec F S_ .f32 := constant S_ .f32 0x7F800000#32
  let main_v19 : FVec F S512 .f32 := broadcastInDim S512 ![] bcast_S_S512 main_cst_6
  let main_v20 : IVec S512 1 := cmpf .olt main_v18 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v17 main_v21
  let main_v23 : FVec F S512x768 .f32 := Host.absf main_arg5
  let main_cst_8 : FVec F S_ .f32 := constant S_ .f32 0x7F800000#32
  let main_v24 : FVec F S512x768 .f32 := broadcastInDim S512x768 ![] bcast_S_S512x768 main_cst_8
  let main_v25 : IVec S512x768 1 := cmpf .olt main_v23 main_v24
  let main_c_9 : IVec S_ 1 := constantI S_ 1 1#1
  let main_v26 : IVec S_ 1 := (fun x v => Host.reduce IntOp.andi x v reducesTo_S512x768_S_d0_1 h_S_) main_v25 main_c_9
  let main_v27 : IVec S_ 1 := andi main_v22 main_v26
  let main_v28 : FVec F S512 .f32 := Host.absf main_arg6
  let main_cst_10 : FVec F S_ .f32 := constant S_ .f32 0x7F800000#32
  let main_v29 : FVec F S512 .f32 := broadcastInDim S512 ![] bcast_S_S512 main_cst_10
  let main_v30 : IVec S512 1 := cmpf .olt main_v28 main_v29
  let main_c_11 : IVec S_ 1 := constantI S_ 1 1#1
  let main_v31 : IVec S_ 1 := (fun x v => Host.reduce IntOp.andi x v reducesTo_S512_S_d0 h_S_) main_v30 main_c_11
  let main_v32 : IVec S_ 1 := andi main_v27 main_v31
  let main_v33 : FVec F S_ .f32 := Host.absf main_arg7
  fn_part2 (F := F) main_arg8 main_arg9 main_v32 main_v33

def fn {F : FTy → Type} [FloatOps F] (main_arg0 : FVec F S4x512x256x64 .f32) (main_arg1 : FVec F S4x256 .f32) (main_arg2 : FVec F S_ .f32) (main_arg3 : FVec F S512 .f32) (main_arg4 : FVec F S512 .f32) (main_arg5 : FVec F S512x768 .f32) (main_arg6 : FVec F S512 .f32) (main_arg7 : FVec F S_ .f32) (main_arg8 : FVec F S512 .f32) (main_arg9 : FVec F S512 .f32) : IVec S_ 1 :=
  let main_v0 : FVec F S4x512x256x64 .f32 := Host.absf main_arg0
  let main_cst : FVec F S_ .f32 := constant S_ .f32 0x7F800000#32
  let main_v1 : FVec F S4x512x256x64 .f32 := broadcastInDim S4x512x256x64 ![] bcast_S_S4x512x256x64 main_cst
  let main_v2 : IVec S4x512x256x64 1 := cmpf .olt main_v0 main_v1
  let main_c : IVec S_ 1 := constantI S_ 1 1#1
  let main_v3 : IVec S_ 1 := (fun x v => Host.reduce IntOp.andi x v reducesTo_S4x512x256x64_S_d0_1_2_3 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S512 .f32 := Host.absf main_arg3
  let main_cst_4 : FVec F S_ .f32 := constant S_ .f32 0x7F800000#32
  let main_v14 : FVec F S512 .f32 := broadcastInDim S512 ![] bcast_S_S512 main_cst_4
  let main_v15 : IVec S512 1 := cmpf .olt main_v13 main_v14
  let main_c_5 : IVec S_ 1 := constantI S_ 1 1#1
  fn_part1 (F := F) main_arg4 main_arg5 main_arg6 main_arg7 main_arg8 main_arg9 main_v12 main_v15 main_c_5
-- ==== Kernel.lean ====
abbrev S4x512x256x64 : Shape := ⟨4, ![4, 512, 256, 64]⟩
abbrev S4x256 : Shape := ⟨2, ![4, 256]⟩
abbrev S_ : Shape := ⟨0, ![]⟩
abbrev S512 : Shape := ⟨1, ![512]⟩
abbrev S512x768 : Shape := ⟨2, ![512, 768]⟩
abbrev S512x512 : Shape := ⟨2, ![512, 512]⟩
abbrev S512x256 : Shape := ⟨2, ![512, 256]⟩
abbrev S256x512 : Shape := ⟨2, ![256, 512]⟩
abbrev S4x512 : Shape := ⟨2, ![4, 512]⟩
abbrev S1x512 : Shape := ⟨2, ![1, 512]⟩
abbrev S4x512x16384 : Shape := ⟨3, ![4, 512, 16384]⟩
abbrev S4x512x1 : Shape := ⟨3, ![4, 512, 1]⟩
abbrev S512x1 : Shape := ⟨2, ![512, 1]⟩
abbrev S1x1 : Shape := ⟨2, ![1, 1]⟩
abbrev S1x512x2048 : Shape := ⟨3, ![1, 512, 2048]⟩
abbrev S1x512x1 : Shape := ⟨3, ![1, 512, 1]⟩
abbrev S512x2048 : Shape := ⟨2, ![512, 2048]⟩
abbrev S2048 : Shape := ⟨1, ![2048]⟩
abbrev S1x2048 : Shape := ⟨2, ![1, 2048]⟩

abbrev nBuf : Space → Nat
  | .hbm => 25
  | .vmem => 10
  | .smem => 0
  | _ => 0

abbrev bufTy : (tb : Table) → Fin (tcTables nBuf tb) → BufTy
  | .hbm, ⟨0, _⟩ => ⟨S4x512x256x64, .f32⟩
  | .hbm, ⟨1, _⟩ => ⟨S4x256, .f32⟩
  | .hbm, ⟨2, _⟩ => ⟨S_, .f32⟩
  | .hbm, ⟨3, _⟩ => ⟨S512, .f32⟩
  | .hbm, ⟨4, _⟩ => ⟨S512, .f32⟩
  | .hbm, ⟨5, _⟩ => ⟨S512x768, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512x256, .f32⟩
  | .hbm, ⟨12, _⟩ => ⟨S256x512, .f32⟩
  | .hbm, ⟨13, _⟩ => ⟨S4x512, .f32⟩
  | .hbm, ⟨14, _⟩ => ⟨S1x512, .f32⟩
  | .hbm, ⟨15, _⟩ => ⟨S4x512, .f32⟩
  | .hbm, ⟨16, _⟩ => ⟨S4x512, .f32⟩
  | .hbm, ⟨17, _⟩ => ⟨S512x512, .bf16⟩
  | .hbm, ⟨18, _⟩ => ⟨S4x512x16384, .f32⟩
  | .hbm, ⟨19, _⟩ => ⟨S4x512x1, .f32⟩
  | .hbm, ⟨20, _⟩ => ⟨S512x1, .f32⟩
  | .hbm, ⟨21, _⟩ => ⟨S512x1, .f32⟩
  | .hbm, ⟨22, _⟩ => ⟨S1x1, .f32⟩
  | .hbm, ⟨23, _⟩ => ⟨S4x512x16384, .f32⟩
  | .hbm, ⟨24, _⟩ => ⟨S4x512x256x64, .f32⟩
  | .local _ .vmem, ⟨0, _⟩ => ⟨S1x512x2048, .f32⟩
  | .local _ .vmem, ⟨1, _⟩ => ⟨S1x512x2048, .f32⟩
  | .local _ .vmem, ⟨2, _⟩ => ⟨S512x512, .bf16⟩
  | .local _ .vmem, ⟨3, _⟩ => ⟨S1x512x1, .f32⟩
  | .local _ .vmem, ⟨4, _⟩ => ⟨S1x512x1, .f32⟩
  | .local _ .vmem, ⟨5, _⟩ => ⟨S512x1, .f32⟩
  | .local _ .vmem, ⟨6, _⟩ => ⟨S512x1, .f32⟩
  | .local _ .vmem, ⟨7, _⟩ => ⟨S1x1, .f32⟩
  | .local _ .vmem, ⟨8, _⟩ => ⟨S1x512x2048, .f32⟩
  | .local _ .vmem, ⟨9, _⟩ => ⟨S1x512x2048, .f32⟩
  | _, _ => ⟨S4x512x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S512x768_S512x512_0_0 : S512x768.Slices ![0, 0] S512x512
  slices_S512x768_S512x256_0_512 : S512x768.Slices ![0, 512] S512x256
  transposes_S512x256_S256x512_1_0 : S512x256.Transposes [1, 0] S256x512
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bitsLt_bf16_f32 : FTy.bits .bf16 < FTy.bits .f32
  shapeCasts_S4x512x256x64_S4x512x16384 : S4x512x256x64.ShapeCasts S4x512x16384
  shapeCasts_S4x512_S4x512x1 : S4x512.ShapeCasts S4x512x1
  shapeCasts_S512_S512x1 : S512.ShapeCasts S512x1
  shapeCasts_S_S1x1 : S_.ShapeCasts S1x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x2048 : S512x1.Broadcasts S512x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S512x2048_S2048 : S512x2048.Reduces [0] S2048
  shapeCasts_S2048_S1x2048 : S2048.ShapeCasts S1x2048
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x2048_S1x512x2048 : S512x2048.ShapeCasts S1x512x2048
  shapeCasts_S4x512x16384_S4x512x256x64 : S4x512x16384.ShapeCasts S4x512x256x64
  dot_S4x256_S256x512_S4x512_1_0_0_1_n_n_wf : DotDims.WF S4x256 S256x512 S4x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x512x16384.size a
  hwx0_0 : ∀ i : grid0.Coords, EltTy.bits .f32 = 32 ∨ (Rect.block (s := S4x512x16384) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x512x1.size a
  hwx0_2 : ∀ i : grid0.Coords, EltTy.bits .f32 = 32 ∨ (Rect.block (s := S4x512x1) S1x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S4x512x16384.size a
  hwx0_6 : ∀ i : grid0.Coords, EltTy.bits .f32 = 32 ∨ (Rect.block (s := S4x512x16384) S1x512x2048.size (cc0_transform_6 i) (hinb0_6 i)).WholeWords (EltTy.packing .f32)

variable [Facts₀]

def dot_S4x256_S256x512_S4x512_1_0_0_1_n_n : DotDims S4x256 S256x512 S4x512 where
  lhsContracting := [1]
  rhsContracting := [0]
  lhsNonContracting := [0]
  rhsNonContracting := [1]
  lhsBatch := []
  rhsBatch := []
  wf := dot_S4x256_S256x512_S4x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v8) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x512x256x64 : Shape := ⟨4, ![4, 512, 256, 64]⟩
abbrev S4x256 : Shape := ⟨2, ![4, 256]⟩
abbrev S_ : Shape := ⟨0, ![]⟩
abbrev S512 : Shape := ⟨1, ![512]⟩
abbrev S512x768 : Shape := ⟨2, ![512, 768]⟩
abbrev S4x256x64x512 : Shape := ⟨4, ![4, 256, 64, 512]⟩
abbrev S4x256x64 : Shape := ⟨3, ![4, 256, 64]⟩
abbrev S4x256x64x1 : Shape := ⟨4, ![4, 256, 64, 1]⟩
abbrev S1x1x1x512 : Shape := ⟨4, ![1, 1, 1, 512]⟩
abbrev S4x1x1x256 : Shape := ⟨4, ![4, 1, 1, 256]⟩
abbrev S4x256x64x256 : Shape := ⟨4, ![4, 256, 64, 256]⟩
abbrev S4x256x64x768 : Shape := ⟨4, ![4, 256, 64, 768]⟩

abbrev nBuf : Space → Nat
  | .hbm => 90
  | .vmem => 0
  | .smem => 0
  | _ => 0

abbrev bufTy : (tb : Table) → Fin (tcTables nBuf tb) → BufTy
  | .hbm, ⟨0, _⟩ => ⟨S4x512x256x64, .f32⟩
  | .hbm, ⟨1, _⟩ => ⟨S4x256, .f32⟩
  | .hbm, ⟨2, _⟩ => ⟨S_, .f32⟩
  | .hbm, ⟨3, _⟩ => ⟨S512, .f32⟩
  | .hbm, ⟨4, _⟩ => ⟨S512, .f32⟩
  | .hbm, ⟨5, _⟩ => ⟨S512x768, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S4x256x64x512, .f32⟩
  | .hbm, ⟨11, _⟩ => ⟨S_, .f32⟩
  | .hbm, ⟨12, _⟩ => ⟨S4x256x64x512, .f32⟩
  | .hbm, ⟨13, _⟩ => ⟨S4x256x64x512, .i1⟩
  | .hbm, ⟨14, _⟩ => ⟨S4x256x64x512, .f32⟩
  | .hbm, ⟨15, _⟩ => ⟨S4x256x64x512, .f32⟩
  | .hbm, ⟨16, _⟩ => ⟨S4x256x64x512, .f32⟩
  | .hbm, ⟨17, _⟩ => ⟨S_, .f32⟩
  | .hbm, ⟨18, _⟩ => ⟨S4x256x64, .f32⟩
  | .hbm, ⟨19, _⟩ => ⟨S4x256x64x1, .f32⟩
  | .hbm, ⟨20, _⟩ => ⟨S_, .f32⟩
  | .hbm, ⟨21, _⟩ => ⟨S4x256x64x1, .f32⟩
  | .hbm, ⟨22, _⟩ => ⟨S4x256x64x1, .f32⟩
  | .hbm, ⟨23, _⟩ => ⟨S4x256x64x512, .f32⟩
  | .hbm, ⟨24, _⟩ => ⟨S4x256x64x512, .f32⟩
  | .hbm, ⟨25, _⟩ => ⟨S4x256x64x512, .f32⟩
  | .hbm, ⟨26, _⟩ => ⟨S_, .f32⟩
  | .hbm, ⟨27, _⟩ => ⟨S4x256x64, .f32⟩
  | .hbm, ⟨28, _⟩ => ⟨S4x256x64x1, .f32⟩
  | .hbm, ⟨29, _⟩ => ⟨S_, .f32⟩
  | .hbm, ⟨30, _⟩ => ⟨S4x256x64x1, .f32⟩
  | .hbm, ⟨31, _⟩ => ⟨S4x256x64x1, .f32⟩
  | .hbm, ⟨32, _⟩ => ⟨S4x256x64x512, .f32⟩
  | .hbm, ⟨33, _⟩ => ⟨S4x256x64x512, .f32⟩
  | .hbm, ⟨34, _⟩ => ⟨S_, .f32⟩
  | .hbm, ⟨35, _⟩ => ⟨S4x256x64x1, .f32⟩
  | .hbm, ⟨36, _⟩ => ⟨S4x256x64x1, .f32⟩
  | .hbm, ⟨37, _⟩ => ⟨S4x256x64x1, .f32⟩
  | .hbm, ⟨38, _⟩ => ⟨S4x256x64x512, .f32⟩
  | .hbm, ⟨39, _⟩ => ⟨S4x256x64x512, .f32⟩
  | .hbm, ⟨40, _⟩ => ⟨S1x1x1x512, .f32⟩
  | .hbm, ⟨41, _⟩ => ⟨S4x256x64x512, .f32⟩
  | .hbm, ⟨42, _⟩ => ⟨S4x256x64x512, .f32⟩
  | .hbm, ⟨43, _⟩ => ⟨S1x1x1x512, .f32⟩
  | .hbm, ⟨44, _⟩ => ⟨S4x256x64x512, .f32⟩
  | .hbm, ⟨45, _⟩ => ⟨S4x256x64x512, .f32⟩
  | .hbm, ⟨46, _⟩ => ⟨S4x1x1x256, .f32⟩
  | .hbm, ⟨47, _⟩ => ⟨S4x256x64x256, .f32⟩
  | .hbm, ⟨48, _⟩ => ⟨S4x256x64x768, .f32⟩
  | .hbm, ⟨49, _⟩ => ⟨S4x256x64x512, .f32⟩
  | .hbm, ⟨50, _⟩ => ⟨S1x1x1x512, .f32⟩
  | .hbm, ⟨51, _⟩ => ⟨S4x256x64x512, .f32⟩
  | .hbm, ⟨52, _⟩ => ⟨S4x256x64x512, .f32⟩
  | .hbm, ⟨53, _⟩ => ⟨S_, .f32⟩
  | .hbm, ⟨54, _⟩ => ⟨S4x256x64x512, .f32⟩
  | .hbm, ⟨55, _⟩ => ⟨S4x256x64x512, .i1⟩
  | .hbm, ⟨56, _⟩ => ⟨S4x256x64x512, .f32⟩
  | .hbm, ⟨57, _⟩ => ⟨S4x256x64x512, .f32⟩
  | .hbm, ⟨58, _⟩ => ⟨S4x256x64x512, .f32⟩
  | .hbm, ⟨59, _⟩ => ⟨S_, .f32⟩
  | .hbm, ⟨60, _⟩ => ⟨S4x256x64, .f32⟩
  | .hbm, ⟨61, _⟩ => ⟨S4x256x64x1, .f32⟩
  | .hbm, ⟨62, _⟩ => ⟨S_, .f32⟩
  | .hbm, ⟨63, _⟩ => ⟨S4x256x64x1, .f32⟩
  | .hbm, ⟨64, _⟩ => ⟨S4x256x64x1, .f32⟩
  | .hbm, ⟨65, _⟩ => ⟨S4x256x64x512, .f32⟩
  | .hbm, ⟨66, _⟩ => ⟨S4x256x64x512, .f32⟩
  | .hbm, ⟨67, _⟩ => ⟨S4x256x64x512, .f32⟩
  | .hbm, ⟨68, _⟩ => ⟨S_, .f32⟩
  | .hbm, ⟨69, _⟩ => ⟨S4x256x64, .f32⟩
  | .hbm, ⟨70, _⟩ => ⟨S4x256x64x1, .f32⟩
  | .hbm, ⟨71, _⟩ => ⟨S_, .f32⟩
  | .hbm, ⟨72, _⟩ => ⟨S4x256x64x1, .f32⟩
  | .hbm, ⟨73, _⟩ => ⟨S4x256x64x1, .f32⟩
  | .hbm, ⟨74, _⟩ => ⟨S4x256x64x512, .f32⟩
  | .hbm, ⟨75, _⟩ => ⟨S4x256x64x512, .f32⟩
  | .hbm, ⟨76, _⟩ => ⟨S_, .f32⟩
  | .hbm, ⟨77, _⟩ => ⟨S4x256x64x1, .f32⟩
  | .hbm, ⟨78, _⟩ => ⟨S4x256x64x1, .f32⟩
  | .hbm, ⟨79, _⟩ => ⟨S4x256x64x1, .f32⟩
  | .hbm, ⟨80, _⟩ => ⟨S4x256x64x512, .f32⟩
  | .hbm, ⟨81, _⟩ => ⟨S4x256x64x512, .f32⟩
  | .hbm, ⟨82, _⟩ => ⟨S1x1x1x512, .f32⟩
  | .hbm, ⟨83, _⟩ => ⟨S4x256x64x512, .f32⟩
  | .hbm, ⟨84, _⟩ => ⟨S4x256x64x512, .f32⟩
  | .hbm, ⟨85, _⟩ => ⟨S1x1x1x512, .f32⟩
  | .hbm, ⟨86, _⟩ => ⟨S4x256x64x512, .f32⟩
  | .hbm, ⟨87, _⟩ => ⟨S4x256x64x512, .f32⟩
  | .hbm, ⟨88, _⟩ => ⟨S4x256x64x512, .f32⟩
  | .hbm, ⟨89, _⟩ => ⟨S4x512x256x64, .f32⟩
  | _, _ => ⟨S4x512x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  transposes_S4x512x256x64_S4x256x64x512_0_2_3_1 : S4x512x256x64.Transposes [0, 2, 3, 1] S4x256x64x512
  bcast_S_S4x256x64x512 : S_.BroadcastsInDim S4x256x64x512 (![] : Fin 0 → Fin S4x256x64x512.rank)
  reducesTo_S4x256x64x512_S4x256x64_d3 : S4x256x64x512.ReducesTo [3] S4x256x64
  h_S_ : 0 < S_.numel
  bcast_S4x256x64_S4x256x64x1_0_1_2 : S4x256x64.BroadcastsInDim S4x256x64x1 (![0, 1, 2] : Fin 3 → Fin S4x256x64x1.rank)
  bcast_S_S4x256x64x1 : S_.BroadcastsInDim S4x256x64x1 (![] : Fin 0 → Fin S4x256x64x1.rank)
  bcast_S4x256x64x1_S4x256x64x512_0_1_2_3 : S4x256x64x1.BroadcastsInDim S4x256x64x512 (![0, 1, 2, 3] : Fin 4 → Fin S4x256x64x512.rank)
  bcast_S512_S1x1x1x512_3 : S512.BroadcastsInDim S1x1x1x512 (![3] : Fin 1 → Fin S1x1x1x512.rank)
  bcast_S1x1x1x512_S4x256x64x512_0_1_2_3 : S1x1x1x512.BroadcastsInDim S4x256x64x512 (![0, 1, 2, 3] : Fin 4 → Fin S4x256x64x512.rank)
  bcast_S4x256_S4x1x1x256_0_3 : S4x256.BroadcastsInDim S4x1x1x256 (![0, 3] : Fin 2 → Fin S4x1x1x256.rank)
  bcast_S4x1x1x256_S4x256x64x256_0_1_2_3 : S4x1x1x256.BroadcastsInDim S4x256x64x256 (![0, 1, 2, 3] : Fin 4 → Fin S4x256x64x256.rank)
  concatenates_S4x256x64x512_S4x256x64x256_S4x256x64x768_d3 : Shape.Concatenates [S4x256x64x512, S4x256x64x256] S4x256x64x768 3
  transposes_S4x256x64x512_S4x512x256x64_0_3_1_2 : S4x256x64x512.Transposes [0, 3, 1, 2] S4x512x256x64
  dot_S4x256x64x768_S512x768_S4x256x64x512_3_1_012_0_n_n_wf : DotDims.WF S4x256x64x768 S512x768 S4x256x64x512 [3] [1] [0, 1, 2] [0] [] []

variable [Facts₀]

def dot_S4x256x64x768_S512x768_S4x256x64x512_3_1_012_0_n_n : DotDims S4x256x64x768 S512x768 S4x256x64x512 where
  lhsContracting := [3]
  rhsContracting := [1]
  lhsNonContracting := [0, 1, 2]
  rhsNonContracting := [0]
  lhsBatch := []
  rhsBatch := []
  wf := dot_S4x256x64x768_S512x768_S4x256x64x512_3_1_012_0_n_n_wf

class Facts : Prop extends Facts₀ where

variable [Facts]
-- ==== Proof.Finite.lean ====
/-
  Finiteness of the inputs, read back from the precondition.

  The precondition is the conjunction, over the ten argument arrays, of "every entry x has |x| < +∞".
  At the ideal instance a float is an extended real, |x| is max x (-x), and the bit pattern 0x7F800000
  denotes +∞; so |x| < +∞ holds exactly when x is neither +∞ nor -∞, i.e. when x is a real number.
  Each "every entry" is a reduction by `and` over all axes that came out 1, so every compared entry is 1;
  the ten reductions are joined by `and`, which is 1 only when both sides are.
-/
import proofs.«123685_j40252433498680_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic
open Cert.Pre_finite_inputs

/-- The scalar shape has exactly one index. -/
instance : Subsingleton S_.Idx := ⟨fun a b => funext fun d => d.elim0⟩

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is below +∞ is a real number:
    at -∞ the negation is +∞, at +∞ the value itself is, and neither is below +∞. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => simp [Ideal.cmp] at h'
  | coe r => exact ⟨r, rfl⟩
  | top => simp [Ideal.cmp] at h'

/-- The comparison against the broadcast constant, read at one index. -/
theorem real_of_cmp_bcast {s : Shape} (hb : S_.BroadcastsInDim s (![] : Fin 0 → Fin s.rank))
    (x : FVec Ideal s .f32) (i : s.Idx)
    (h : cmpf .olt (Host.absf x) (broadcastInDim s ![] hb (constant (F := Ideal) S_ .f32 0x7F800000#32)) i = 1#1) :
    ∃ r : ℝ, x i = (r : EReal) :=
  real_of_abs_lt_inf (x i) h

/-- The comparison of a rank-0 array against the constant itself, read at its index. -/
theorem real_of_cmp_scalar (x : FVec Ideal S_ .f32) (i : S_.Idx)
    (h : cmpf .olt (Host.absf x) (constant (F := Ideal) S_ .f32 0x7F800000#32) i = 1#1) :
    ∃ r : ℝ, x i = (r : EReal) :=
  real_of_abs_lt_inf (x i) h

/-- Under the precondition every entry of arrays 0, 1, 5, 6 and 7 is a real number. -/
theorem reals_of_finite_inputs [Facts]
    (a0 : FVec Ideal S4x512x256x64 .f32) (a1 : FVec Ideal S4x256 .f32)
    (a2 : FVec Ideal S_ .f32) (a3 a4 : FVec Ideal S512 .f32)
    (a5 : FVec Ideal S512x768 .f32) (a6 : FVec Ideal S512 .f32)
    (a7 : FVec Ideal S_ .f32) (a8 a9 : FVec Ideal S512 .f32)
    (h : fn (F := Ideal) a0 a1 a2 a3 a4 a5 a6 a7 a8 a9 = (fun _ => 1#1)) :
    (∀ i, ∃ r : ℝ, a0 i = (r : EReal)) ∧ (∀ i, ∃ r : ℝ, a1 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ValueIdx.ix0
  dsimp only [fn, fn_part1, fn_part2, andi] at h0
  simp only [IntOp.andi_eq_one] at h0
  obtain ⟨⟨⟨⟨⟨⟨⟨⟨⟨e0, e1⟩, _e2⟩, _e3⟩, _e4⟩, e5⟩, e6⟩, e7⟩, _e8⟩, _e9⟩ := h0
  refine ⟨fun i => ?_, fun i => ?_, fun i => ?_, fun i => ?_, fun i => ?_⟩
  · exact real_of_cmp_bcast _ a0 i (Host.reduce_andi_all _ _ _ _ _ e0 i)
  · exact real_of_cmp_bcast _ a1 i (Host.reduce_andi_all _ _ _ _ _ e1 i)
  · exact real_of_cmp_bcast _ a5 i (Host.reduce_andi_all _ _ _ _ _ e5 i)
  · exact real_of_cmp_bcast _ a6 i (Host.reduce_andi_all _ _ _ _ _ e6 i)
  · exact real_of_cmp_scalar a7 i (Host.reduce_andi_all _ _ _ _ _ e7 i)

end Cert.Finite

end
-- ==== Proof.LibVariance.lean ====
import Mathlib.Algebra.BigOperators.Fin
import Mathlib.Algebra.Order.BigOperators.Group.Finset
import Mathlib.Data.Fintype.BigOperators
import Mathlib.Tactic.Ring
import Mathlib.Tactic.FieldSimp
import Idealize.ShloMosaic.PureOps.Ideal

/-!
# The two forms of the biased variance, on the extended reals

For a finite family of REAL numbers `z i`, `i ∈ t`, with `n = |t| ≠ 0`, the mean of the squares
less the square of the mean is the mean of the squared deviations from the mean:

  `(∑ z²)/n − ((∑ z)/n)² = (∑ (z − (∑ z)/n)²)/n`.

Both sides are written with the operations of the extended reals (`+`, `-`, `*` and the quotient
`Ideal.div`) applied to coercions of reals, which is the form a batch normalisation takes when its
statistics are accumulated as a sum and a sum of squares on one side and computed from the centred
values on the other.  The identity is false at infinite entries (`⊤ - ⊤`), so the family is real.
-/

noncomputable section

namespace VarianceLaws

open Idealize.ShloMosaic
open scoped BigOperators

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The quotient of two reals, the divisor not zero, is the real quotient. -/
theorem div_coe_coe (x : ℝ) {a : ℝ} (ha : a ≠ 0) :
    Ideal.div (x : EReal) (a : EReal) = ((x / a : ℝ) : EReal) := by
  rw [Ideal.div_coe ha, ← EReal.coe_mul, mul_one_div]

/-- The identity over the reals: `Q/n − (S/n)² = (∑ (z − S/n)²)/n` with `S = ∑ z`, `Q = ∑ z²`, `n = |t|`. -/
theorem real_variance {ι : Type*} (t : Finset ι) (z : ι → ℝ) {n : ℝ} (hn : n ≠ 0)
    (hcard : (t.card : ℝ) = n) :
    (∑ i ∈ t, z i * z i) / n - (∑ i ∈ t, z i) / n * ((∑ i ∈ t, z i) / n)
      = (∑ i ∈ t, (z i - (∑ j ∈ t, z j) / n) * (z i - (∑ j ∈ t, z j) / n)) / n := by
  set S : ℝ := ∑ j ∈ t, z j with hS
  have hterm : ∀ i ∈ t, (z i - S / n) * (z i - S / n)
      = z i * z i - 2 * (S / n) * z i + S / n * (S / n) := fun i _ => by ring
  rw [Finset.sum_congr rfl hterm, Finset.sum_add_distrib, Finset.sum_sub_distrib,
    ← Finset.mul_sum, Finset.sum_const, nsmul_eq_mul, hcard, ← hS]
  field_simp
  ring

/-- **Mean of squares less squared mean = mean of squared deviations**, on the extended reals, for a
    finite family of reals: the sums, the differences, the products and the quotients by `n` are the
    extended reals' own. -/
theorem variance_forms {ι : Type*} (t : Finset ι) (z : ι → ℝ) {n : ℝ} (hn : n ≠ 0)
    (hcard : (t.card : ℝ) = n) :
    Ideal.div (∑ i ∈ t, (z i : EReal) * (z i : EReal)) (n : EReal)
        - Ideal.div (∑ i ∈ t, (z i : EReal)) (n : EReal) * Ideal.div (∑ i ∈ t, (z i : EReal)) (n : EReal)
      = Ideal.div (∑ i ∈ t, ((z i : EReal) - Ideal.div (∑ j ∈ t, (z j : EReal)) (n : EReal))
          * ((z i : EReal) - Ideal.div (∑ j ∈ t, (z j : EReal)) (n : EReal))) (n : EReal) := by
  have hsq : (∑ i ∈ t, (z i : EReal) * (z i : EReal)) = ((∑ i ∈ t, z i * z i : ℝ) : EReal) := by
    rw [coe_sum]; exact Finset.sum_congr rfl fun i _ => (EReal.coe_mul _ _).symm
  have hmean : Ideal.div (∑ i ∈ t, (z i : EReal)) (n : EReal) = (((∑ i ∈ t, z i) / n : ℝ) : EReal) := by
    rw [← coe_sum, div_coe_coe _ hn]
  have hdev : (∑ i ∈ t, ((z i : EReal) - (((∑ j ∈ t, z j) / n : ℝ) : EReal))
        * ((z i : EReal) - (((∑ j ∈ t, z j) / n : ℝ) : EReal)))
      = ((∑ i ∈ t, (z i - (∑ j ∈ t, z j) / n) * (z i - (∑ j ∈ t, z j) / n) : ℝ) : EReal) := by
    rw [coe_sum]
    exact Finset.sum_congr rfl fun i _ => by rw [← EReal.coe_sub, ← EReal.coe_mul]
  rw [hmean, hsq, hdev, div_coe_coe _ hn, div_coe_coe _ hn, ← EReal.coe_mul, ← EReal.coe_sub,
    real_variance t z hn hcard]

/-- The mean of the squared deviations of a finite family of reals is a real that is not negative. -/
theorem variance_nonneg {ι : Type*} (t : Finset ι) (z : ι → ℝ) {n : ℝ} (hn : 0 < n) (μ : ℝ) :
    ∃ v : ℝ, 0 ≤ v ∧ Ideal.div (∑ i ∈ t, ((z i : EReal) - (μ : EReal)) * ((z i : EReal) - (μ : EReal)))
      (n : EReal) = (v : EReal) := by
  refine ⟨(∑ i ∈ t, (z i - μ) * (z i - μ)) / n,
    div_nonneg (Finset.sum_nonneg fun i _ => mul_self_nonneg _) hn.le, ?_⟩
  rw [← div_coe_coe _ hn.ne', coe_sum]
  refine congrArg (fun s => Ideal.div s (n : EReal)) (Finset.sum_congr rfl fun i _ => ?_)
  rw [← EReal.coe_sub, ← EReal.coe_mul]

end VarianceLaws
-- ==== Proof.LibQuot.lean ====
import Mathlib.Algebra.BigOperators.Fin
import Mathlib.Algebra.Order.BigOperators.Group.Finset
import Mathlib.Data.Fintype.BigOperators
import Idealize.ShloMosaic.PureOps.Ideal

/-!
# Quotients, reciprocals, norms and exponentials of reals, on the extended reals

The operations of the extended reals (`+`, `*`, the quotient `Ideal.div`, the square root
`Ideal.sqrt`, the exponential `Ideal.exp`) applied to coercions of reals give coercions of
reals, with the divisor not zero and the radicand not negative.  In particular a product with
two reciprocals is the iterated quotient, and `ε + √(∑ x²)` is a positive real for `ε > 0`.
-/

noncomputable section

namespace QuotLaws

open Idealize.ShloMosaic
open scoped BigOperators

/-! ### Being a real -/

/-- An extended real that is the coercion of a real. -/
def IsReal (x : EReal) : Prop := ∃ r : ℝ, x = (r : EReal)

/-- A coercion is a real. -/
theorem isReal_coe (r : ℝ) : IsReal (r : EReal) := ⟨r, rfl⟩

/-- Zero is a real. -/
theorem isReal_zero : IsReal 0 := ⟨0, rfl⟩

/-- One is a real. -/
theorem isReal_one : IsReal 1 := ⟨1, rfl⟩

/-- A sum of two reals is a real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A difference of two reals is a real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- A product of two reals is a real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The larger of two reals is a real. -/
theorem IsReal.max {x y : EReal} (hx : IsReal x) (hy : IsReal y) : IsReal (max x y) := by
  rcases le_total x y with h | h
  · rwa [max_eq_right h]
  · rwa [max_eq_left h]

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- A finite sum of reals is a real. -/
theorem isReal_sum {ι : Type*} (t : Finset ι) (f : ι → EReal) (h : ∀ i ∈ t, IsReal (f i)) :
    IsReal (∑ i ∈ t, f i) := by
  classical
  induction t using Finset.induction_on with
  | empty => exact ⟨0, by simp⟩
  | insert a t ha ih =>
    rw [Finset.sum_insert ha]
    exact (h a (Finset.mem_insert_self a t)).add
      (ih fun i hi => h i (Finset.mem_insert_of_mem hi))

/-- A finite sum of products of reals, as a real. -/
theorem sum_mul_coe {ι : Type*} (t : Finset ι) (f g : ι → ℝ) :
    (∑ i ∈ t, (f i : EReal) * (g i : EReal)) = ((∑ i ∈ t, f i * g i : ℝ) : EReal) := by
  rw [coe_sum]
  exact Finset.sum_congr rfl fun i _ => (EReal.coe_mul _ _).symm

/-! ### Quotients and reciprocals -/

/-- The quotient of two reals, the divisor not zero, is the real quotient. -/
theorem div_coe_coe (x : ℝ) {a : ℝ} (ha : a ≠ 0) :
    Ideal.div (x : EReal) (a : EReal) = ((x / a : ℝ) : EReal) := by
  rw [Ideal.div_coe ha, ← EReal.coe_mul, mul_one_div]

/-- The reciprocal of a real that is not zero. -/
theorem one_div_coe {a : ℝ} (ha : a ≠ 0) :
    Ideal.div 1 (a : EReal) = ((1 / a : ℝ) : EReal) := by
  rw [← EReal.coe_one, div_coe_coe 1 ha]

/-- A quotient of reals is a real. -/
theorem IsReal.div {x y : EReal} (hx : IsReal x) (hy : IsReal y) (h0 : y ≠ 0) :
    IsReal (Ideal.div x y) := by
  obtain ⟨a, rfl⟩ := hx; obtain ⟨b, rfl⟩ := hy
  exact ⟨a / b, div_coe_coe a (EReal.coe_ne_zero.1 h0)⟩

/-- **Two reciprocals against two quotients**: `x · (1/a) · (1/b) = (x / a) / b`. -/
theorem mul_recip_recip (x : ℝ) {a b : ℝ} (ha : a ≠ 0) (hb : b ≠ 0) :
    (x : EReal) * Ideal.div 1 (a : EReal) * Ideal.div 1 (b : EReal)
      = Ideal.div (Ideal.div (x : EReal) (a : EReal)) (b : EReal) := by
  rw [one_div_coe ha, one_div_coe hb, div_coe_coe x ha, div_coe_coe _ hb,
    ← EReal.coe_mul, ← EReal.coe_mul]
  congr 1
  ring

/-- Both sides of the law above as one real. -/
theorem div_div_coe (x : ℝ) {a b : ℝ} (ha : a ≠ 0) (hb : b ≠ 0) :
    Ideal.div (Ideal.div (x : EReal) (a : EReal)) (b : EReal) = ((x / a / b : ℝ) : EReal) := by
  rw [div_coe_coe x ha, div_coe_coe _ hb]

/-! ### Square roots and norms -/

/-- The square root of a real that is not negative. -/
theorem sqrt_coe_of_nonneg {r : ℝ} (h : 0 ≤ r) :
    Ideal.sqrt (r : EReal) = ((Real.sqrt r : ℝ) : EReal) := by
  rw [Ideal.sqrt_coe, if_neg (not_lt.2 h)]

/-- The square root of a nonnegative real is a nonnegative real. -/
theorem sqrt_isReal_nonneg {r : ℝ} (h : 0 ≤ r) :
    ∃ y : ℝ, 0 ≤ y ∧ Ideal.sqrt (r : EReal) = (y : EReal) :=
  ⟨Real.sqrt r, Real.sqrt_nonneg r, sqrt_coe_of_nonneg h⟩

/-- A sum of squares of reals is not negative. -/
theorem sum_sq_nonneg {ι : Type*} (t : Finset ι) (x : ι → ℝ) : 0 ≤ ∑ i ∈ t, x i * x i :=
  Finset.sum_nonneg fun i _ => mul_self_nonneg (x i)

/-- The Euclidean norm `√(∑ x²)` of a finite family of reals, on the extended reals. -/
theorem norm_coe {ι : Type*} (t : Finset ι) (x : ι → ℝ) :
    Ideal.sqrt (∑ i ∈ t, (x i : EReal) * (x i : EReal))
      = ((Real.sqrt (∑ i ∈ t, x i * x i) : ℝ) : EReal) := by
  rw [sum_mul_coe, sqrt_coe_of_nonneg (sum_sq_nonneg t x)]

/-- The same with the sum taken from the initial value zero. -/
theorem norm_coe' {ι : Type*} (t : Finset ι) (x : ι → ℝ) :
    Ideal.sqrt (0 + ∑ i ∈ t, (x i : EReal) * (x i : EReal))
      = ((Real.sqrt (∑ i ∈ t, x i * x i) : ℝ) : EReal) := by
  rw [zero_add, norm_coe]

/-- `ε + √(∑ x²)` on the extended reals is the real `ε + √(∑ x²)`. -/
theorem eps_add_norm_coe {ι : Type*} (t : Finset ι) (ε : ℝ) (x : ι → ℝ) :
    (ε : EReal) + Ideal.sqrt (∑ i ∈ t, (x i : EReal) * (x i : EReal))
      = ((ε + Real.sqrt (∑ i ∈ t, x i * x i) : ℝ) : EReal) := by
  rw [norm_coe, EReal.coe_add]

/-- For `ε > 0` the real `ε + √r` is positive. -/
theorem eps_add_sqrt_pos {ε : ℝ} (hε : 0 < ε) (r : ℝ) : 0 < ε + Real.sqrt r :=
  add_pos_of_pos_of_nonneg hε (Real.sqrt_nonneg r)

/-- For `ε > 0` the real `ε + √r` is not zero. -/
theorem eps_add_sqrt_ne_zero {ε : ℝ} (hε : 0 < ε) (r : ℝ) : ε + Real.sqrt r ≠ 0 :=
  (eps_add_sqrt_pos hε r).ne'

/-! ### Exponentials -/

/-- The exponential of a real is a positive real. -/
theorem exp_isReal_pos (r : ℝ) : ∃ y : ℝ, 0 < y ∧ Ideal.exp (r : EReal) = (y : EReal) :=
  ⟨Real.exp r, Real.exp_pos r, Ideal.exp_coe r⟩

/-- The exponential of a real is a real. -/
theorem IsReal.exp {x : EReal} (hx : IsReal x) : IsReal (Ideal.exp x) := by
  obtain ⟨a, rfl⟩ := hx
  exact ⟨Real.exp a, Ideal.exp_coe a⟩

end QuotLaws
-- ==== Proof.Spec.lean ====
/-
  What both programs compute, one output position at a time.

  Fix a batch entry n and a position (t, h). Let x be the column of the input at that position (512 channels), s the
  batch entry's row of the side input (256 entries), W the 512 × 768 weight matrix whose first 512 columns meet x and whose
  last 256 meet s, and b the bias. The linear layer's value at output channel o is
      (∑_c W(o, c) · x(c)) + ((∑_a s(a) · W(o, 512 + a)) + b(o)),
  it passes through the one-slope rectifier z ↦ (z if z ≥ 0, else a · z), is normalised over the 512 output channels,
  scaled and shifted channel by channel, and added to x(o).

  The normalisation appears in two forms: from the sum and the sum of squares (mean μ = S/512, variance Q/512 − μ²), and
  from the centred values (variance = mean of (z − μ)²). They agree on real numbers, not at infinities, which is where the
  finiteness of the inputs enters.
-/
import Idealize.ShloMosaic.Lib.ValueIdx
import Idealize.ShloMosaic.PureOps.Ideal
import Idealize.ShloMosaic.PureOps.Ideal.Laws
import proofs.«123685_j40252433498680_2_alg».proof.Proof.LibVariance
import proofs.«123685_j40252433498680_2_alg».proof.Proof.LibQuot

noncomputable section

namespace Cert.Spec

open Idealize.ShloMosaic Idealize.ShloMosaic.ValueIdx
open scoped BigOperators

/-! ## The four float words of the two programs -/

/-- The word of 0. -/
abbrev zeroW : EReal := Ideal.ofBits .f32 0x00000000#32
/-- The word of 1/512 = 2⁻⁹. -/
abbrev inv512 : EReal := Ideal.ofBits .f32 0x3B000000#32
/-- The word of 512 = 2⁹. -/
abbrev n512 : EReal := Ideal.ofBits .f32 0x44000000#32
/-- The word both programs add to the variance (the same word on both sides: never evaluated). -/
abbrev eps : EReal := Ideal.ofBits .f32 0x322BCC77#32

theorem zeroW_eq : zeroW = 0 := Ideal.ofBits_zero_f32

theorem n512_eq : n512 = ((512 : ℝ) : EReal) := by
  simp [n512, Ideal.ofBits, Ideal.ieee, -EReal.coe_mul]; norm_num

theorem inv512_eq : inv512 = ((1 / 512 : ℝ) : EReal) := by
  simp [inv512, Ideal.ofBits, Ideal.ieee, -EReal.coe_mul]; norm_num

/-! ## The columns of the weight matrix -/

/-- Column c of the first 512 columns. -/
def chanCol (c : Fin 512) : Fin 768 := ⟨c.val, by have := c.isLt; omega⟩
/-- Column 512 + a, one of the last 256. -/
def auxCol (a : Fin 256) : Fin 768 := ⟨512 + a.val, by have := a.isLt; omega⟩

/-- A sum over the 768 columns is the sum over the first 512 plus the sum over the last 256. -/
theorem sum_cols {M : Type*} [AddCommMonoid M] (f : Fin 768 → M) :
    ∑ k : Fin 768, f k = (∑ c : Fin 512, f (chanCol c)) + ∑ a : Fin 256, f (auxCol a) := by
  have h := Fin.sum_univ_add (a := 512) (b := 256) (fun k : Fin (512 + 256) => f k)
  exact h

/-! ## The layer at one position -/

/-- The linear layer at output channel o. -/
def lin (W : (⟨2, ![512, 768]⟩ : Shape).Idx → EReal) (x : Fin 512 → EReal) (s : Fin 256 → EReal) (b : Fin 512 → EReal)
    (o : Fin 512) : EReal :=
  (∑ c : Fin 512, W (ix2 o (chanCol c)) * x c) + ((∑ a : Fin 256, s a * W (ix2 o (auxCol a))) + b o)

/-- The one-slope rectifier. -/
def prelu (a z : EReal) : EReal := Scalar.select (Ideal.cmp .oge z zeroW) z (a * z)

/-- The normalised value at channel o, statistics from the sum and the sum of squares. -/
def normOne (z : Fin 512 → EReal) (o : Fin 512) : EReal :=
  (z o - (∑ k : Fin 512, z k) * inv512)
    * Ideal.rsqrt (((∑ k : Fin 512, z k * z k) * inv512 - (∑ k : Fin 512, z k) * inv512 * ((∑ k : Fin 512, z k) * inv512)) + eps)

/-- The normalised value at channel o, statistics from the centred values. -/
def normTwo (z : Fin 512 → EReal) (o : Fin 512) : EReal :=
  (z o - Ideal.div (zeroW + ∑ k : Fin 512, z k) n512)
    * Ideal.rsqrt (Ideal.div (zeroW + ∑ k : Fin 512, (z k - Ideal.div (zeroW + ∑ j : Fin 512, z j) n512)
        * (z k - Ideal.div (zeroW + ∑ j : Fin 512, z j) n512)) n512 + eps)

/-- On real numbers the two forms of the normalisation agree: Q/n − (S/n)² is the mean of the squared deviations. -/
theorem normTwo_eq_normOne (z : Fin 512 → ℝ) (o : Fin 512) :
    normTwo (fun k => (z k : EReal)) o = normOne (fun k => (z k : EReal)) o := by
  have h512 : (512 : ℝ) ≠ 0 := by norm_num
  have hv := VarianceLaws.variance_forms (Finset.univ : Finset (Fin 512)) z h512 (by simp)
  unfold normTwo normOne
  rw [zeroW_eq, n512_eq, inv512_eq]
  simp only [zero_add, ← Ideal.div_coe h512]
  rw [hv]

/-- The residual output at channel o: the input plus the scaled and shifted normalised activation. -/
def out (x : Fin 512 → EReal) (nz : Fin 512 → EReal) (g β : Fin 512 → EReal) (o : Fin 512) : EReal :=
  x o + (nz o * g o + β o)

/-! ## Real inputs give real activations -/

open QuotLaws in
/-- With real inputs the linear layer's value is real. -/
theorem isReal_lin {W : (⟨2, ![512, 768]⟩ : Shape).Idx → EReal} {x : Fin 512 → EReal} {s : Fin 256 → EReal} {b : Fin 512 → EReal}
    (hW : ∀ i, IsReal (W i)) (hx : ∀ c, IsReal (x c)) (hs : ∀ a, IsReal (s a)) (hb : ∀ o, IsReal (b o)) (o : Fin 512) :
    IsReal (lin W x s b o) :=
  ((isReal_sum _ _ fun c _ => (hW _).mul (hx c)).add ((isReal_sum _ _ fun a _ => (hs a).mul (hW _)).add (hb o)))

open QuotLaws in
/-- The rectifier of a real with a real slope is real. -/
theorem isReal_prelu {a z : EReal} (ha : IsReal a) (hz : IsReal z) : IsReal (prelu a z) := by
  unfold prelu Scalar.select
  split
  · exact hz
  · exact ha.mul hz

/-! ## The whole result -/

/-- The activations at batch entry n and position (t, h), over the output channels. -/
def acts (X : (⟨4, ![4, 512, 256, 64]⟩ : Shape).Idx → EReal) (S : (⟨2, ![4, 256]⟩ : Shape).Idx → EReal)
    (W : (⟨2, ![512, 768]⟩ : Shape).Idx → EReal) (b : (⟨1, ![512]⟩ : Shape).Idx → EReal) (a : (⟨0, ![]⟩ : Shape).Idx → EReal)
    (n : Fin 4) (t : Fin 256) (h : Fin 64) (k : Fin 512) : EReal :=
  prelu (a ix0) (lin W (fun c => X (ix4 n c t h)) (fun j => S (ix2 n j)) (fun j => b (ix1 j)) k)

/-- The result at batch entry n, channel o, position (t, h). -/
def G (X : (⟨4, ![4, 512, 256, 64]⟩ : Shape).Idx → EReal) (S : (⟨2, ![4, 256]⟩ : Shape).Idx → EReal)
    (W : (⟨2, ![512, 768]⟩ : Shape).Idx → EReal) (b : (⟨1, ![512]⟩ : Shape).Idx → EReal) (a : (⟨0, ![]⟩ : Shape).Idx → EReal)
    (g β : (⟨1, ![512]⟩ : Shape).Idx → EReal) (n : Fin 4) (o : Fin 512) (t : Fin 256) (h : Fin 64) : EReal :=
  out (fun c => X (ix4 n c t h)) (normOne (acts X S W b a n t h)) (fun j => g (ix1 j)) (fun j => β (ix1 j)) o

/-- The result as an array. -/
def Garr (X : (⟨4, ![4, 512, 256, 64]⟩ : Shape).Idx → EReal) (S : (⟨2, ![4, 256]⟩ : Shape).Idx → EReal)
    (W : (⟨2, ![512, 768]⟩ : Shape).Idx → EReal) (b : (⟨1, ![512]⟩ : Shape).Idx → EReal) (a : (⟨0, ![]⟩ : Shape).Idx → EReal)
    (g β : (⟨1, ![512]⟩ : Shape).Idx → EReal) : (⟨4, ![4, 512, 256, 64]⟩ : Shape).Idx → EReal :=
  fun i => G X S W b a g β (i 0) (i 1) (i 2) (i 3)

open QuotLaws in
/-- With real x, s, W, b and slope, every activation is real. -/
theorem isReal_acts {X : (⟨4, ![4, 512, 256, 64]⟩ : Shape).Idx → EReal} {S : (⟨2, ![4, 256]⟩ : Shape).Idx → EReal}
    {W : (⟨2, ![512, 768]⟩ : Shape).Idx → EReal} {b : (⟨1, ![512]⟩ : Shape).Idx → EReal} {a : (⟨0, ![]⟩ : Shape).Idx → EReal}
    (hX : ∀ i, IsReal (X i)) (hS : ∀ i, IsReal (S i)) (hW : ∀ i, IsReal (W i)) (hb : ∀ i, IsReal (b i)) (ha : ∀ i, IsReal (a i))
    (n : Fin 4) (t : Fin 256) (h : Fin 64) (k : Fin 512) : IsReal (acts X S W b a n t h k) :=
  isReal_prelu (ha _) (isReal_lin hW (fun _ => hX _) (fun _ => hS _) (fun _ => hb _) k)

end Cert.Spec

end
-- ==== Proof.RefIsSpec.lean ====
/-
  The reference program computes the specification.

  Read one output position at a time. The result is a transpose of the channel-last array, so the entry at batch
  entry n, channel o, position (t, h) is the channel-last entry at (n, t, h, o). There the program
    * joins the input column x(c) = X(n, c, t, h) (512 channels) with the batch entry's side row s(a) = S(n, a)
      (256 entries) and contracts the 768 joined entries against row k of the weight matrix; the sum over the 768
      columns is the sum over the first 512 plus the sum over the last 256, and with the bias this is the linear layer
      (commutativity of the products and associativity of the sum hold for all extended reals);
    * applies the one-slope rectifier, entry by entry;
    * normalises over the 512 output channels with the mean and the mean of the squared deviations;
    * scales, shifts, and adds the input entry.
  The specification normalises with the sum and the sum of squares instead. The two agree when the activations are
  real numbers, and they are real because the inputs are: this is the only use of the finiteness hypotheses.
-/
import proofs.«123685_j40252433498680_2_alg».proof.Proof.Gen.ReferenceIdeal.Read
import proofs.«123685_j40252433498680_2_alg».proof.Proof.Spec
import Idealize.ShloMosaic.Lib.Pipeline.Value
import Idealize.ShloMosaic.Lib.ValueIdx
import Idealize.ShloMosaic.PureOps.Ideal.Laws

noncomputable section

namespace Cert.RefValue

open Idealize.ShloMosaic Idealize.ShloMosaic.ValueIdx
open Cert.ReferenceIdeal Cert.ReferenceIdeal.Read
open scoped BigOperators

variable (x0 : (⟨S4x512x256x64, .f32⟩ : BufTy).Contents (Elt Ideal)) (x1 : (⟨S4x256, .f32⟩ : BufTy).Contents (Elt Ideal))
  (x5 : (⟨S512x768, .f32⟩ : BufTy).Contents (Elt Ideal)) (x6 : (⟨S512, .f32⟩ : BufTy).Contents (Elt Ideal))
  (x7 : (⟨S_, .f32⟩ : BufTy).Contents (Elt Ideal)) (x8 x9 : (⟨S512, .f32⟩ : BufTy).Contents (Elt Ideal))

/-! ## The joined array -/

/-- On the first 512 columns the joined array is the input, channel last. -/
theorem cat_left (n : Fin 4) (t : Fin 256) (h : Fin 64) (c : Fin 512) :
    val_main_v32 (F := Ideal) x0 x1 (ix4 n t h (Spec.chanCol c)) = x0 (ix4 n c t h) := by
  unfold val_main_v32
  refine (concatenate_pair_apply_left (t := S4x256x64x768) (s₁ := S4x256x64x512) (s₂ := S4x256x64x256) 3 _ _ _ (ix4 n t h (Spec.chanCol c)) rfl (ix4 n t h c : S4x256x64x512.Idx) ?_).trans ?_
  · intro b
    match b with
    | ⟨0, _⟩ => rfl
    | ⟨1, _⟩ => rfl
    | ⟨2, _⟩ => rfl
    | ⟨3, _⟩ => rfl
  · rw [val_main_v0_apply]
    exact congrArg x0 (funext fun a => Fin.ext (by
      match a with
      | ⟨0, _⟩ => rfl
      | ⟨1, _⟩ => rfl
      | ⟨2, _⟩ => rfl
      | ⟨3, _⟩ => rfl))

/-- On the last 256 columns the joined array is the batch entry's side row, the same at every position. -/
theorem cat_right (n : Fin 4) (t : Fin 256) (h : Fin 64) (a : Fin 256) :
    val_main_v32 (F := Ideal) x0 x1 (ix4 n t h (Spec.auxCol a)) = x1 (ix2 n a) := by
  unfold val_main_v32
  refine (concatenate_pair_apply_right (t := S4x256x64x768) (s₁ := S4x256x64x512) (s₂ := S4x256x64x256) 3 _ _ _ (ix4 n t h (Spec.auxCol a)) rfl rfl (ix4 n t h a : S4x256x64x256.Idx) ?_ ?_).trans ?_
  · intro b hb
    match b with
    | ⟨0, _⟩ => rfl
    | ⟨1, _⟩ => rfl
    | ⟨2, _⟩ => rfl
    | ⟨3, _⟩ => exact absurd rfl hb
  · show a.val + 512 = 512 + a.val
    omega
  · rw [val_main_v31_apply, val_main_v30_apply]
    exact congrArg x1 (funext fun d => Fin.ext (by
      match d with
      | ⟨0, _⟩ => rfl
      | ⟨1, _⟩ => rfl))

/-! ## The linear layer and the rectifier -/

/-- The contraction plus the bias is the linear layer. -/
theorem lin_ref (n : Fin 4) (t : Fin 256) (h : Fin 64) (k : Fin 512) :
    val_main_v36 (F := Ideal) x0 x1 x5 x6 (ix4 n t h k)
      = Spec.lin x5 (fun c => x0 (ix4 n c t h)) (fun j => x1 (ix2 n j)) (fun j => x6 (ix1 j)) k := by
  rw [val_main_v36_apply, val_main_v33_apply, val_main_v35_apply, val_main_v34_apply]
  show (∑ k' : Fin 768, val_main_v32 (F := Ideal) x0 x1 (lidx_main_v33 (ix4 n t h k) k') * x5 (ridx_main_v33 (ix4 n t h k) k'))
      + x6 (idx_main_v34 (idx_main_v35 (ix4 n t h k))) = _
  have el : ∀ k' : Fin 768, lidx_main_v33 (ix4 n t h k) k' = ix4 n t h k' := fun k' => funext fun a => Fin.ext (by
    match a with
    | ⟨0, _⟩ => rfl
    | ⟨1, _⟩ => rfl
    | ⟨2, _⟩ => rfl
    | ⟨3, _⟩ => rfl)
  have er : ∀ k' : Fin 768, ridx_main_v33 (ix4 n t h k) k' = ix2 k k' := fun k' => funext fun a => Fin.ext (by
    match a with
    | ⟨0, _⟩ => rfl
    | ⟨1, _⟩ => rfl)
  have eb : idx_main_v34 (idx_main_v35 (ix4 n t h k)) = ix1 k := funext fun a => Fin.ext (by
    match a with
    | ⟨0, _⟩ => rfl)
  simp only [el, er, eb]
  rw [Spec.sum_cols, add_assoc]
  unfold Spec.lin
  refine congrArg₂ (· + ·) (Finset.sum_congr rfl fun c _ => ?_) (congrArg₂ (· + ·) (Finset.sum_congr rfl fun a _ => ?_) rfl)
  · rw [cat_left, mul_comm]
  · rw [cat_right]

/-- The rectified value is the specification's activation. -/
theorem act_ref (n : Fin 4) (t : Fin 256) (h : Fin 64) (k : Fin 512) :
    val_main_v41 (F := Ideal) x0 x1 x5 x6 x7 (ix4 n t h k) = Spec.acts x0 x1 x5 x6 x7 n t h k := by
  rw [val_main_v41_apply, val_main_v38_apply, val_main_v40_apply, val_main_v39_apply, val_main_v37_apply, lin_ref]
  rfl

/-! ## The normalisation -/

/-- The sum over the channels. -/
theorem sum_ref (n : Fin 4) (t : Fin 256) (h : Fin 64) :
    val_main_v42 (F := Ideal) x0 x1 x5 x6 x7 (ix3 n t h)
      = Spec.zeroW + ∑ k : Fin 512, val_main_v41 (F := Ideal) x0 x1 x5 x6 x7 (ix4 n t h k) := by
  rw [val_main_v42_apply]
  refine congrArg₂ (· + ·) rfl (Finset.sum_congr rfl fun k _ => congrArg _ (funext fun a => Fin.ext (by
    match a with
    | ⟨0, _⟩ => rfl
    | ⟨1, _⟩ => rfl
    | ⟨2, _⟩ => rfl
    | ⟨3, _⟩ => rfl)))

/-- The mean over the channels. -/
theorem mean_ref (n : Fin 4) (t : Fin 256) (h : Fin 64) :
    val_main_v45 (F := Ideal) x0 x1 x5 x6 x7 (ix4 n t h (0 : Fin 1))
      = Ideal.div (Spec.zeroW + ∑ k : Fin 512, val_main_v41 (F := Ideal) x0 x1 x5 x6 x7 (ix4 n t h k)) Spec.n512 := by
  have e : idx_main_v43 (ix4 n t h (0 : Fin 1)) = ix3 n t h := funext fun a => Fin.ext (by
    match a with
    | ⟨0, _⟩ => rfl
    | ⟨1, _⟩ => rfl
    | ⟨2, _⟩ => rfl)
  rw [val_main_v45_apply, val_main_v43_apply, val_main_v44_apply, e, sum_ref]
  rfl

/-- The mean of the squared deviations. -/
theorem var_ref (n : Fin 4) (t : Fin 256) (h : Fin 64) :
    val_main_v52 (F := Ideal) x0 x1 x5 x6 x7 (ix4 n t h (0 : Fin 1))
      = Ideal.div (Spec.zeroW + ∑ k : Fin 512,
          (val_main_v41 (F := Ideal) x0 x1 x5 x6 x7 (ix4 n t h k)
              - Ideal.div (Spec.zeroW + ∑ j : Fin 512, val_main_v41 (F := Ideal) x0 x1 x5 x6 x7 (ix4 n t h j)) Spec.n512)
            * (val_main_v41 (F := Ideal) x0 x1 x5 x6 x7 (ix4 n t h k)
              - Ideal.div (Spec.zeroW + ∑ j : Fin 512, val_main_v41 (F := Ideal) x0 x1 x5 x6 x7 (ix4 n t h j)) Spec.n512))
          Spec.n512 := by
  have e50 : idx_main_v50 (ix4 n t h (0 : Fin 1)) = ix3 n t h := funext fun a => Fin.ext (by
    match a with
    | ⟨0, _⟩ => rfl
    | ⟨1, _⟩ => rfl
    | ⟨2, _⟩ => rfl)
  have e49 : ∀ k : Fin 512, idx_main_v49 (ix3 n t h) k = ix4 n t h k := fun k => funext fun a => Fin.ext (by
    match a with
    | ⟨0, _⟩ => rfl
    | ⟨1, _⟩ => rfl
    | ⟨2, _⟩ => rfl
    | ⟨3, _⟩ => rfl)
  have e46 : ∀ k : Fin 512, idx_main_v46 (ix4 n t h k) = ix4 n t h (0 : Fin 1) := fun k => funext fun a => Fin.ext (by
    match a with
    | ⟨0, _⟩ => rfl
    | ⟨1, _⟩ => rfl
    | ⟨2, _⟩ => rfl
    | ⟨3, _⟩ => rfl)
  have sq : ∀ k : Fin 512, val_main_v48 (F := Ideal) x0 x1 x5 x6 x7 (idx_main_v49 (ix3 n t h) k)
      = (val_main_v41 (F := Ideal) x0 x1 x5 x6 x7 (ix4 n t h k)
              - Ideal.div (Spec.zeroW + ∑ j : Fin 512, val_main_v41 (F := Ideal) x0 x1 x5 x6 x7 (ix4 n t h j)) Spec.n512)
            * (val_main_v41 (F := Ideal) x0 x1 x5 x6 x7 (ix4 n t h k)
              - Ideal.div (Spec.zeroW + ∑ j : Fin 512, val_main_v41 (F := Ideal) x0 x1 x5 x6 x7 (ix4 n t h j)) Spec.n512) := by
    intro k
    rw [e49 k, val_main_v48_apply, val_main_v47_apply, val_main_v46_apply, e46 k, mean_ref]
    rfl
  rw [val_main_v52_apply, val_main_v50_apply, val_main_v51_apply, e50, val_main_v49_apply]
  simp only [sq]
  rfl

/-- The normalised activation, statistics from the centred values. -/
theorem norm_ref (n : Fin 4) (t : Fin 256) (h : Fin 64) (o : Fin 512) :
    val_main_v59 (F := Ideal) x0 x1 x5 x6 x7 (ix4 n t h o)
      = Spec.normTwo (fun k => val_main_v41 (F := Ideal) x0 x1 x5 x6 x7 (ix4 n t h k)) o := by
  have e53 : idx_main_v53 (ix4 n t h o) = ix4 n t h (0 : Fin 1) := funext fun a => Fin.ext (by
    match a with
    | ⟨0, _⟩ => rfl
    | ⟨1, _⟩ => rfl
    | ⟨2, _⟩ => rfl
    | ⟨3, _⟩ => rfl)
  have e58 : idx_main_v58 (ix4 n t h o) = ix4 n t h (0 : Fin 1) := funext fun a => Fin.ext (by
    match a with
    | ⟨0, _⟩ => rfl
    | ⟨1, _⟩ => rfl
    | ⟨2, _⟩ => rfl
    | ⟨3, _⟩ => rfl)
  rw [val_main_v59_apply, val_main_v54_apply, val_main_v53_apply, e53, mean_ref, val_main_v58_apply, e58,
    val_main_v57_apply, val_main_v56_apply, var_ref, val_main_v55_apply]
  rfl

/-- With real inputs the two forms of the normalisation agree on the activations. -/
theorem norm_spec (h0 : ∀ i, ∃ r : ℝ, x0 i = (r : EReal)) (h1 : ∀ i, ∃ r : ℝ, x1 i = (r : EReal))
    (h5 : ∀ i, ∃ r : ℝ, x5 i = (r : EReal)) (h6 : ∀ i, ∃ r : ℝ, x6 i = (r : EReal)) (h7 : ∀ i, ∃ r : ℝ, x7 i = (r : EReal))
    (n : Fin 4) (t : Fin 256) (h : Fin 64) (o : Fin 512) :
    Spec.normTwo (fun k => val_main_v41 (F := Ideal) x0 x1 x5 x6 x7 (ix4 n t h k)) o
      = Spec.normOne (Spec.acts x0 x1 x5 x6 x7 n t h) o := by
  have hz : (fun k => val_main_v41 (F := Ideal) x0 x1 x5 x6 x7 (ix4 n t h k)) = Spec.acts x0 x1 x5 x6 x7 n t h :=
    funext fun k => act_ref x0 x1 x5 x6 x7 n t h k
  rw [hz]
  have hr : ∀ k : Fin 512, ∃ r : ℝ, Spec.acts x0 x1 x5 x6 x7 n t h k = (r : EReal) :=
    fun k => Spec.isReal_acts h0 h1 h5 h6 h7 n t h k
  choose r hr using hr
  have hreal : Spec.acts x0 x1 x5 x6 x7 n t h = fun k => (r k : EReal) := funext hr
  rw [hreal]
  exact Spec.normTwo_eq_normOne r o

/-! ## The result -/

/-- The reference's entry at batch entry n, channel o, position (t, h), before the normalisation is rewritten. -/
theorem out_ref (n : Fin 4) (o : Fin 512) (t : Fin 256) (h : Fin 64) :
    val_main_v67 (F := Ideal) x0 x1 x5 x6 x7 x8 x9 (ix4 n o t h)
      = Spec.out (fun c => x0 (ix4 n c t h))
          (Spec.normTwo (fun k => val_main_v41 (F := Ideal) x0 x1 x5 x6 x7 (ix4 n t h k)))
          (fun j => x8 (ix1 j)) (fun j => x9 (ix1 j)) o := by
  have e67 : idx_main_v67 (ix4 n o t h) = ix4 n t h o := funext fun a => Fin.ext (by
    match a with
    | ⟨0, _⟩ => rfl
    | ⟨1, _⟩ => rfl
    | ⟨2, _⟩ => rfl
    | ⟨3, _⟩ => rfl)
  have e0 : idx_main_v0 (ix4 n t h o) = ix4 n o t h := funext fun a => Fin.ext (by
    match a with
    | ⟨0, _⟩ => rfl
    | ⟨1, _⟩ => rfl
    | ⟨2, _⟩ => rfl
    | ⟨3, _⟩ => rfl)
  have e61 : idx_main_v60 (idx_main_v61 (ix4 n t h o)) = ix1 o := funext fun a => Fin.ext (by
    match a with
    | ⟨0, _⟩ => rfl)
  have e64 : idx_main_v63 (idx_main_v64 (ix4 n t h o)) = ix1 o := funext fun a => Fin.ext (by
    match a with
    | ⟨0, _⟩ => rfl)
  rw [val_main_v67_apply, e67, val_main_v66_apply, val_main_v0_apply, e0, val_main_v65_apply, val_main_v62_apply,
    val_main_v61_apply, val_main_v60_apply, e61, val_main_v64_apply, val_main_v63_apply, e64, norm_ref]
  rfl

/-- With real inputs the reference program's result array is the specification array. -/
theorem ref_eq_spec
    (h0 : ∀ i, ∃ r : ℝ, x0 i = (r : EReal)) (h1 : ∀ i, ∃ r : ℝ, x1 i = (r : EReal)) (h5 : ∀ i, ∃ r : ℝ, x5 i = (r : EReal))
    (h6 : ∀ i, ∃ r : ℝ, x6 i = (r : EReal)) (h7 : ∀ i, ∃ r : ℝ, x7 i = (r : EReal)) :
    val_main_v67 (F := Ideal) x0 x1 x5 x6 x7 x8 x9 = Spec.Garr x0 x1 x5 x6 x7 x8 x9 := by
  funext i
  obtain ⟨n, o, t, h, rfl⟩ : ∃ (n : Fin 4) (o : Fin 512) (t : Fin 256) (h : Fin 64), i = ix4 n o t h :=
    ⟨i 0, i 1, i 2, i 3, eq_ix4 i⟩
  rw [out_ref]
  show Spec.out _ _ _ _ o = Spec.G x0 x1 x5 x6 x7 x8 x9 n o t h
  unfold Spec.G Spec.out
  rw [norm_spec x0 x1 x5 x6 x7 h0 h1 h5 h6 h7]

end Cert.RefValue

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.LibColBcast.lean ====
/-
  A column laid against the rows of a two-axis array: an a×1 array broadcast to a×b reads, at (p, q), the column at p;
  a length-a vector laid along the first axis (broadcast to a×1, then to a×b) reads, at (p, q), the vector at p; and a
  length-a vector reshaped to a×1 reads, at (p, 0), the vector at p.
-/
import Idealize.ShloMosaic.Lib.ValueIdx
import Idealize.ShloMosaic.Lib.Pipeline.Value

noncomputable section

namespace Cert.LibColBcast

open Idealize.ShloMosaic Idealize.ShloMosaic.ValueIdx

variable {α : Type}

/-- An a×1 array broadcast to a×b reads, at (p, q), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector broadcast along axis 0 to a×1, read at (p, u). -/
theorem bcast_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An a×1 array broadcast along both axes to a×b, read at (p, q), is its row p. -/
theorem bcast_ab_apply {a b : ℕ} (r : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h r (ix2 p q) = r (ix2 p (0 : Fin 1)) := by
  refine broadcastInDim_apply ![0, 1] h r (ix2 p q) (ix2 p (0 : Fin 1)) fun ax => ?_
  match ax with
  | ⟨0, _⟩ =>
    show p.val = if a = 1 then 0 else p.val
    split
    · have := p.isLt; omega
    · rfl
  | ⟨1, _⟩ => rfl

/-- The vector broadcast to a×1 and then to a×b reads, at (p, q), the vector at p. -/
theorem bcast_col_apply {a b : ℕ} (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [bcast_ab_apply, bcast_a1_apply]

/-- A length-a vector reshaped to a×1 reads, at (p, u), the vector at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibColBcast

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.Arrays.lean ====
/-
  The arrays the kernel's windows are cut from, as the host operations before the region leave them, entry by entry.

  The input x (4 × 512 × 256 × 64) is reshaped to 4 × 512 × 16384: position p = 64 t + h. The weight matrix W (512 × 768) is
  cut into its first 512 columns (the matrix Wx the body multiplies the block by) and its last 256 columns, which meet the
  side input s (4 × 256): sw(n, k) = (∑_j s(n, j) · W(k, 512 + j)) + b(k), reshaped to 4 × 512 × 1. The scale, the shift and
  the slope are reshaped to columns and to a 1 × 1 array.
-/
import proofs.«123685_j40252433498680_2_alg».proof.Proof.Gen.KernelIdeal.Frame
import proofs.«123685_j40252433498680_2_alg».proof.Proof.Spec
import proofs.«123685_j40252433498680_2_alg».proof.Proof.LibDense
import proofs.«123685_j40252433498680_2_alg».proof.Proof.LibColBcast
import proofs.«123685_j40252433498680_2_alg».proof.Proof.LibRowBias
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Arrays

open Idealize.ShloMosaic Idealize.ShloMosaic.TcCoe Idealize.SL.Sem Idealize.ShloMosaic.ValueIdx
open Cert.KernelIdeal Cert.KernelIdeal.Gen Idealize.ShloMosaic.StableHlo
open scoped BigOperators

variable (m : (ℓ : Loc nD τ sig) → Buf (Elt Ideal) ℓ)

/-! ## The argument arrays and the windows' arrays, as plain functions of an index -/

/-- The input x. -/
abbrev argX (c : Dev nD) : FVec Ideal S4x512x256x64 .f32 := m ((c : Thread nD τ).loc main_arg0)
/-- The side input s. -/
abbrev argS (c : Dev nD) : FVec Ideal S4x256 .f32 := m ((c : Thread nD τ).loc main_arg1)
/-- The weight matrix W. -/
abbrev argW (c : Dev nD) : FVec Ideal S512x768 .f32 := m ((c : Thread nD τ).loc main_arg5)
/-- The bias b. -/
abbrev argB (c : Dev nD) : FVec Ideal S512 .f32 := m ((c : Thread nD τ).loc main_arg6)
/-- The slope a. -/
abbrev argA (c : Dev nD) : FVec Ideal S_ .f32 := m ((c : Thread nD τ).loc main_arg7)
/-- The scale g. -/
abbrev argG (c : Dev nD) : FVec Ideal S512 .f32 := m ((c : Thread nD τ).loc main_arg8)
/-- The shift β. -/
abbrev argBeta (c : Dev nD) : FVec Ideal S512 .f32 := m ((c : Thread nD τ).loc main_arg9)

/-- The reshaped input, as the region finds it. -/
abbrev winX (c : Dev nD) : FVec Ideal S4x512x16384 .f32 := V m c main_v8
/-- The matrix Wx, as the region finds it. -/
abbrev winWx (c : Dev nD) : FVec Ideal S512x512 .bf16 := V m c main_v7
/-- The side input's share, as the region finds it. -/
abbrev winSw (c : Dev nD) : FVec Ideal S4x512x1 .f32 := V m c main_v9
/-- The scale's column, as the region finds it. -/
abbrev winG (c : Dev nD) : FVec Ideal S512x1 .f32 := V m c main_v10
/-- The shift's column, as the region finds it. -/
abbrev winBeta (c : Dev nD) : FVec Ideal S512x1 .f32 := V m c main_v11
/-- The slope's 1 × 1 array, as the region finds it. -/
abbrev winA (c : Dev nD) : FVec Ideal S1x1 .f32 := V m c main_v12

/-- The row t of position p = 64 t + h. -/
def tOf (p : Fin 16384) : Fin 256 := ⟨p.val / 64, by have := p.isLt; omega⟩
/-- The column h of position p = 64 t + h. -/
def hOf (p : Fin 16384) : Fin 64 := ⟨p.val % 64, by omega⟩

/-- The reshaped input at (n, k, p) is the input at (n, k, t, h), p = 64 t + h. -/
theorem x_apply (c : Dev nD) (n : Fin 4) (k : Fin 512) (p : Fin 16384) :
    winX m c (ix3 n k p) = argX m c (ix4 n k (tOf p) (hOf p)) := by
  have e : winX m c = shapeCast S4x512x16384 (argX m c) shapeCasts_S4x512x256x64_S4x512x16384 := by
    show StableHlo.after hostOps0 (fun b => m (c, b)) (Proc.devRef .tc main_v8) = _
    after_results
    try rfl
  rw [e]
  refine shapeCast_apply _ _ _ _ ?_
  show (S4x512x256x64.rowMajor (ix4 n k (tOf p) (hOf p))).val = (S4x512x16384.rowMajor (ix3 n k p)).val
  rw [Shape.rowMajor_val_four, Shape.rowMajor_val_three]
  show ((n.val * 512 + k.val) * 256 + p.val / 64) * 64 + p.val % 64 = (n.val * 512 + k.val) * 16384 + p.val
  omega

/-- The matrix the body multiplies by: the first 512 columns of W. -/
theorem wx_apply (c : Dev nD) (k j : Fin 512) :
    winWx m c (ix2 k j) = argW m c (ix2 k (Spec.chanCol j)) := by
  have e : winWx m c
      = truncf (F := Ideal) .bf16 (extractStridedSlice S512x512 ![0, 0] (argW m c) slices_S512x768_S512x512_0_0)
          bitsLt_bf16_f32 := by
    show StableHlo.after hostOps0 (fun b => m (c, b)) (Proc.devRef .tc main_v7) = _
    after_results
    try rfl
  rw [e]
  exact slice2_axis1_apply 0 _ slices_S512x768_S512x512_0_0 k j (Spec.chanCol j) (Nat.zero_add _).symm

/-- The host's product of the side input with the transposed last columns of W, entry (n, k). -/
theorem sdot_apply (A : FVec Ideal S4x256 .f32) (B : FVec Ideal S256x512 .f32) (n : Fin 4) (k : Fin 512) :
    Host.dotGeneral dot_S4x256_S256x512_S4x512_1_0_0_1_n_n none A B (ix2 n k) = ∑ j : Fin 256, A (ix2 n j) * B (ix2 j k) :=
  LibDense.plain_dotGeneral_apply none _ A B n k

/-- The side input's share of the linear layer, bias included, at batch entry n and channel k. -/
theorem sw_apply (c : Dev nD) (n : Fin 4) (k : Fin 512) (u : Fin 1) :
    winSw m c (ix3 n k u)
      = (∑ j : Fin 256, argS m c (ix2 n j) * argW m c (ix2 k (Spec.auxCol j))) + argB m c (ix1 k) := by
  have e : winSw m c
      = shapeCast S4x512x1 (addf (F := Ideal)
          (Host.dotGeneral dot_S4x256_S256x512_S4x512_1_0_0_1_n_n none (argS m c)
            (transpose S256x512 [1, 0]
              (extractStridedSlice S512x256 ![0, 512] (argW m c) slices_S512x768_S512x256_0_512)
              transposes_S512x256_S256x512_1_0))
          (broadcastInDim S4x512 ![0, 1] bcast_S1x512_S4x512_0_1
            (broadcastInDim S1x512 ![1] bcast_S512_S1x512_1 (argB m c))))
        shapeCasts_S4x512_S4x512x1 := by
    show StableHlo.after hostOps0 (fun b => m (c, b)) (Proc.devRef .tc main_v9) = _
    after_results
    try rfl
  rw [e, shapeCast_apply _ shapeCasts_S4x512_S4x512x1 (ix3 n k u) (ix2 n k) (by
    have hu : u.val = 0 := by omega
    show (S4x512.rowMajor (ix2 n k)).val = (S4x512x1.rowMajor (ix3 n k u)).val
    rw [Shape.rowMajor_val_two, Shape.rowMajor_val_three]
    show n.val * 512 + k.val = (n.val * 512 + k.val) * 1 + u.val
    omega)]
  rw [addf_apply, sdot_apply, LibRowBias.bcast_row_apply]
  refine congrArg (· + _) (Finset.sum_congr rfl fun j _ => congrArg (_ * ·) ?_)
  rw [transpose_ix2_apply]
  exact slice2_axis1_apply 512 _ slices_S512x768_S512x256_0_512 k j (Spec.auxCol j) rfl

/-- The scale as a column. -/
theorem g_apply (c : Dev nD) (k : Fin 512) (u : Fin 1) :
    winG m c (ix2 k u) = argG m c (ix1 k) := by
  have e : winG m c = shapeCast S512x1 (argG m c) shapeCasts_S512_S512x1 := by
    show StableHlo.after hostOps0 (fun b => m (c, b)) (Proc.devRef .tc main_v10) = _
    after_results
    try rfl
  rw [e]
  exact LibColBcast.shapeCast_a_a1_apply _ shapeCasts_S512_S512x1 k u

/-- The shift as a column. -/
theorem beta_apply (c : Dev nD) (k : Fin 512) (u : Fin 1) :
    winBeta m c (ix2 k u) = argBeta m c (ix1 k) := by
  have e : winBeta m c = shapeCast S512x1 (argBeta m c) shapeCasts_S512_S512x1 := by
    show StableHlo.after hostOps0 (fun b => m (c, b)) (Proc.devRef .tc main_v11) = _
    after_results
    try rfl
  rw [e]
  exact LibColBcast.shapeCast_a_a1_apply _ shapeCasts_S512_S512x1 k u

/-- The slope as a 1 × 1 array. -/
theorem slope_apply (c : Dev nD) (u v : Fin 1) :
    winA m c (ix2 u v) = argA m c ix0 := by
  have e : winA m c = shapeCast S1x1 (argA m c) shapeCasts_S_S1x1 := by
    show StableHlo.after hostOps0 (fun b => m (c, b)) (Proc.devRef .tc main_v12) = _
    after_results
    try rfl
  rw [e]
  unfold shapeCast
  exact congrArg _ (eq_ix0 _)

end Cert.KernelIdeal.Arrays

end
-- ==== Proof.Body.lean ====
/-
  The kernel's body as a value: what one grid point stores, entry by entry.

  The body loads a 1 × 512 × 2048 block x of the input (512 channels, 2048 consecutive positions), the 512 × 512 matrix Wx,
  a 1 × 512 × 1 column sw (the side input's share of the linear layer, bias included), the two 512 × 1 columns of the
  scale g and the shift β, and the 1 × 1 slope a. At channel o and position q of the block it stores
      x(o, q) + (normalised z(·, q) at o) · g(o) + β(o),      z(k, q) = rectifier_a((∑_c Wx(k, c) · x(c, q)) + sw(k)),
  the normalisation over the 512 channels k taken from the sum and the sum of squares of z(·, q).
-/
import proofs.«123685_j40252433498680_2_alg».proof.Proof.Gen.KernelIdeal.Skeleton
import proofs.«123685_j40252433498680_2_alg».proof.Proof.Spec
import proofs.«123685_j40252433498680_2_alg».proof.Proof.LibDense
import proofs.«123685_j40252433498680_2_alg».proof.Proof.LibColBcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen
open scoped BigOperators

variable (x0 : FVec Ideal S1x512x2048 .f32) (x1 : FVec Ideal S512x512 .bf16) (x2 : FVec Ideal S1x512x1 .f32)
  (x3 x4 : FVec Ideal S512x1 .f32) (x5 : FVec Ideal S1x1 .f32)

/-! ## The body's intermediate arrays, named -/

/-- The linear layer over the block: Wx · x + sw, the column sw laid against the 2048 positions. -/
def linB : FVec Ideal S512x2048 .f32 :=
  addf (matmul dot_S512x512_S512x2048_S512x2048_1_0_0_1_n_n none (shapeCast S512x512 x1 shapeCasts_S512x512_S512x512)
      (truncf .bf16 (k0_pay2 (F := Ideal) x0) bitsLt_bf16_f32) (constant S512x2048 .f32 0x00000000#32))
    (broadcastTo S512x2048 (shapeCast S512x1 x2 shapeCasts_S1x512x1_S512x1) broadcasts_S512x1_S512x2048)

/-- The rectified activations over the block. -/
def actB : FVec Ideal S512x2048 .f32 :=
  select (cmpf .oge (linB x0 x1 x2) (broadcast S512x2048 (Scalar.ofBits .f32 0x00000000#32))) (linB x0 x1 x2)
    (mulf (broadcast S512x2048 (extractAt ![0, 0] x5 inpos_S1x1_p0_0)) (linB x0 x1 x2))

/-- The mean over the channels, one per position. -/
def meanB : FVec Ideal S1x2048 .f32 :=
  mulf (shapeCast S1x2048 (multiReduction .add [0] S2048 (actB x0 x1 x2 x5) 0x00000000#32 reduces_S512x2048_S2048 (.inl rfl) rfl)
      shapeCasts_S2048_S1x2048) (broadcast S1x2048 (Scalar.ofBits .f32 0x3B000000#32))

/-- The reciprocal standard deviation over the channels, one per position. -/
def rstdB : FVec Ideal S1x2048 .f32 :=
  rsqrt (addf (subf
      (mulf (shapeCast S1x2048 (multiReduction .add [0] S2048 (mulf (actB x0 x1 x2 x5) (actB x0 x1 x2 x5)) 0x00000000#32
          reduces_S512x2048_S2048 (.inl rfl) rfl) shapeCasts_S2048_S1x2048) (broadcast S1x2048 (Scalar.ofBits .f32 0x3B000000#32)))
      (mulf (meanB x0 x1 x2 x5) (meanB x0 x1 x2 x5)))
    (broadcast S1x2048 (Scalar.ofBits .f32 0x322BCC77#32)))

/-- The body's scaled normalised activations are these arrays combined. -/
theorem pay3_eq : k0_pay3 (F := Ideal) x0 x1 x2 x5 x3
    = mulf (mulf (subf (actB x0 x1 x2 x5) (broadcastTo S512x2048 (meanB x0 x1 x2 x5) broadcasts_S1x2048_S512x2048))
        (broadcastTo S512x2048 (rstdB x0 x1 x2 x5) broadcasts_S1x2048_S512x2048))
      (broadcastTo S512x2048 (shapeCast S512x1 x3 shapeCasts_S512x1_S512x1) broadcasts_S512x1_S512x2048) := rfl

/-! ## Read at an index -/

/-- The block as a 512 × 2048 matrix: entry (c, q) is the block's (0, c, q). -/
theorem pay2_apply (c : Fin 512) (q : Fin 2048) : k0_pay2 (F := Ideal) x0 (ix2 c q) = x0 (ix3 (0 : Fin 1) c q) :=
  shapeCast_1ab_ab_apply x0 shapeCasts_S1x512x2048_S512x2048 c q

/-- A 512 × 1 column laid against the 2048 positions reads the column. -/
theorem col_apply (v : FVec Ideal S512x1 .f32) (o : Fin 512) (q : Fin 2048) :
    broadcastTo S512x2048 (shapeCast S512x1 v shapeCasts_S512x1_S512x1) broadcasts_S512x1_S512x2048 (ix2 o q) = v (ix2 o (0 : Fin 1)) := by
  rw [shapeCast_self]
  exact LibColBcast.broadcastTo_a1_ab_apply v broadcasts_S512x1_S512x2048 o q

/-- A 1 × 2048 row laid under the 512 channels reads the row. -/
theorem row_apply (v : FVec Ideal S1x2048 .f32) (o : Fin 512) (q : Fin 2048) :
    broadcastTo S512x2048 v broadcasts_S1x2048_S512x2048 (ix2 o q) = v (ix2 (0 : Fin 1) q) :=
  broadcastTo_1b_ab_apply v broadcasts_S1x2048_S512x2048 o q

/-- The matrix product into the zero accumulator, entry (o, q). -/
theorem mm_apply (A : FVec Ideal S512x512 .bf16) (B : FVec Ideal S512x2048 .bf16) (o : Fin 512) (q : Fin 2048) :
    matmul dot_S512x512_S512x2048_S512x2048_1_0_0_1_n_n none A B (constant S512x2048 .f32 0x00000000#32) (ix2 o q)
      = ∑ c : Fin 512, A (ix2 o c) * B (ix2 c q) :=
  LibDense.plain_matmul_apply none A B o q

/-- A sum over the channels of a 512 × 2048 array, at position q. -/
theorem colsum_apply (src : FVec Ideal S512x2048 .f32) (q : Fin 2048) :
    multiReduction .add [0] S2048 src 0x00000000#32 reduces_S512x2048_S2048 (.inl rfl) rfl (ix1 q) = ∑ k : Fin 512, src (ix2 k q) := by
  refine (Ideal.multiReduction_add_single src 0x00000000#32 reduces_S512x2048_S2048 (.inl rfl) rfl (ix1 q)).trans ?_
  refine Finset.sum_congr rfl fun k _ => congrArg src ?_
  funext a
  apply Fin.ext
  match a with
  | ⟨0, _⟩ => rfl
  | ⟨1, _⟩ => rfl

/-- The one entry of the 1 × 1 slope. -/
theorem slope_eq : extractAt ![0, 0] x5 inpos_S1x1_p0_0 = x5 (ix2 (0 : Fin 1) (0 : Fin 1)) :=
  congrArg x5 (funext fun a => Fin.ext (by match a with | ⟨0, _⟩ => rfl | ⟨1, _⟩ => rfl))

/-- The linear layer at (o, q). -/
theorem linB_apply (o : Fin 512) (q : Fin 2048) :
    linB x0 x1 x2 (ix2 o q) = (∑ c : Fin 512, x1 (ix2 o c) * x0 (ix3 (0 : Fin 1) c q)) + x2 (ix3 (0 : Fin 1) o (0 : Fin 1)) := by
  unfold linB
  rw [addf_apply, mm_apply, shapeCast_self, LibColBcast.broadcastTo_a1_ab_apply, shapeCast_1ab_ab_apply]
  refine congrArg (· + _) (Finset.sum_congr rfl fun c _ => ?_)
  rw [truncf_apply, pay2_apply]

/-- The activation at (o, q). -/
theorem actB_apply (o : Fin 512) (q : Fin 2048) :
    actB x0 x1 x2 x5 (ix2 o q) = Spec.prelu (x5 (ix2 (0 : Fin 1) (0 : Fin 1))) (linB x0 x1 x2 (ix2 o q)) := by
  unfold actB
  rw [slope_eq]
  rfl

/-- The mean at position q. -/
theorem meanB_apply (u : Fin 1) (q : Fin 2048) :
    meanB x0 x1 x2 x5 (ix2 u q) = (∑ k : Fin 512, actB x0 x1 x2 x5 (ix2 k q)) * Spec.inv512 := by
  unfold meanB
  rw [mulf_apply, shapeCast_a_1a_apply, colsum_apply]
  rfl

/-- The reciprocal standard deviation at position q. -/
theorem rstdB_apply (u : Fin 1) (q : Fin 2048) :
    rstdB x0 x1 x2 x5 (ix2 u q)
      = Ideal.rsqrt (((∑ k : Fin 512, actB x0 x1 x2 x5 (ix2 k q) * actB x0 x1 x2 x5 (ix2 k q)) * Spec.inv512
          - (∑ k : Fin 512, actB x0 x1 x2 x5 (ix2 k q)) * Spec.inv512 * ((∑ k : Fin 512, actB x0 x1 x2 x5 (ix2 k q)) * Spec.inv512))
        + Spec.eps) := by
  unfold rstdB
  show Ideal.rsqrt (_ - _ + _) = _
  rw [mulf_apply, mulf_apply, shapeCast_a_1a_apply, colsum_apply, meanB_apply]
  rfl

/-- What the body stores at (u, o, q): the residual output of the layer at position q, from the block's entries. -/
theorem stored_apply (u : Fin 1) (o : Fin 512) (q : Fin 2048) :
    k0_pay1 (F := Ideal) (k0_pay2 (F := Ideal) x0) (k0_pay3 (F := Ideal) x0 x1 x2 x5 x3) x4 (ix3 u o q)
      = Spec.out (fun c => x0 (ix3 (0 : Fin 1) c q))
          (Spec.normOne fun k => Spec.prelu (x5 (ix2 (0 : Fin 1) (0 : Fin 1)))
            ((∑ c : Fin 512, x1 (ix2 k c) * x0 (ix3 (0 : Fin 1) c q)) + x2 (ix3 (0 : Fin 1) k (0 : Fin 1))))
          (fun k => x3 (ix2 k (0 : Fin 1))) (fun k => x4 (ix2 k (0 : Fin 1))) o := by
  unfold k0_pay1
  rw [shapeCast_ab_1ab_apply, addf_apply, addf_apply, pay2_apply, col_apply, pay3_eq, mulf_apply, mulf_apply, subf_apply,
    col_apply, row_apply, row_apply, meanB_apply, rstdB_apply]
  simp only [actB_apply, linB_apply]
  rfl

end Cert.KernelIdeal.Body

end
-- ==== Proof.Blocks.lean ====
/-
  From the grid's blocks to the output array.

  The grid is 4 × 8: point t works on batch entry n and on the 2048 positions p = 2048 · (t's second coordinate) + q,
  q < 2048. The input window and the output window move together (block (n, 0, second coordinate)); the side input's column
  moves with n; the matrix, the scale, the shift and the slope are the same whole arrays at every point. So what point t
  writes back at (u, o, q) is the layer's residual output at batch entry n, channel o and position p, and the 32 blocks tile
  the 4 × 512 × 16384 output array.
-/
import proofs.«123685_j40252433498680_2_alg».proof.Proof.Gen.KernelIdeal.Frame
import proofs.«123685_j40252433498680_2_alg».proof.Proof.Spec
import proofs.«123685_j40252433498680_2_alg».proof.Proof.Body
import proofs.«123685_j40252433498680_2_alg».proof.Proof.Arrays
import Idealize.ShloMosaic.Lib.Pipeline.Value
import Idealize.ShloMosaic.Lib.ValueIdx
import Idealize.ShloMosaic.PureOps.Ideal

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Arrays
open Idealize.ShloMosaic.Pipeline (Dat Cfg Window)
open scoped BigOperators

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The output array after the run, as one function of the argument arrays: at (n, o, p) the layer's residual output at
    batch entry n, channel o and position p = 64 t + h. -/
def K3 (c : Dev nD) : FVec Ideal S4x512x16384 .f32 := fun i =>
  Spec.G (argX m c) (argS m c) (argW m c) (argB m c) (argA m c) (argG m c) (argBeta m c) (i 0) (i 1) (tOf (i 2)) (hOf (i 2))

/-- The printed index maps, decided over the 32 points: the input block moves with the output block, the side column with the
    batch entry, every other window stays at block zero; and the output's block indices stay in range. -/
theorem idx_facts : ∀ t : Fin cfg0.N,
    win0_0.index t (0 : Fin 3) = win0_6.index t (0 : Fin 3) ∧ win0_0.index t (1 : Fin 3) = 0
    ∧ win0_0.index t (2 : Fin 3) = win0_6.index t (2 : Fin 3)
    ∧ win0_1.index t (0 : Fin 2) = 0 ∧ win0_1.index t (1 : Fin 2) = 0
    ∧ win0_2.index t (0 : Fin 3) = win0_6.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 3) = 0 ∧ win0_6.index t (0 : Fin 3) ≤ 3 ∧ win0_6.index t (2 : Fin 3) ≤ 7 :=
  (by decide +kernel : ∀ t : Fin grid0.N, _)

/-- Every block of the output array is some point's. -/
theorem idx_onto : ∀ (q0 : Fin 4) (q2 : Fin 8), ∃ t : Fin cfg0.N, win0_6.index t = ![q0.val, 0, q2.val] :=
  (by decide +kernel : ∀ (q0 : Fin 4) (q2 : Fin 8), ∃ t : Fin grid0.N, win0_6.index t = ![q0.val, 0, q2.val])

section Point

variable (c : Dev nD) (t : Fin cfg0.N) (n : Fin 4) (p : Fin 16384) (q : Fin 2048)
  (hn : win0_6.index t (0 : Fin 3) = n.val) (hp : win0_6.index t (2 : Fin 3) * 2048 + q.val = p.val)

include hn hp in
/-- The input block's entry (u, k, q) is the input at batch entry n, channel k, position p. -/
theorem blk0_apply (u : Fin 1) (k : Fin 512) :
    iblk m c 0 t (ix3 u k q) = argX m c (ix4 n k (tOf p) (hOf p)) := by
  obtain ⟨e0, e1, e2, -⟩ := idx_facts t
  rw [← x_apply m c n k p]
  show winX m c (((cfg0.win 0).blk t).view.emb (ix3 u k q)) = winX m c (ix3 n k p)
  refine congrArg _ (funext fun a => Fin.ext ?_)
  have hu : u.val = 0 := by omega
  match a with
  | ⟨0, _⟩ => show win0_0.index t (0 : Fin 3) * 1 + 1 * u.val = n.val; omega
  | ⟨1, _⟩ => show win0_0.index t (1 : Fin 3) * 512 + 1 * k.val = k.val; omega
  | ⟨2, _⟩ => show win0_0.index t (2 : Fin 3) * 2048 + 1 * q.val = p.val; omega

/-- The matrix block is the whole matrix: the first 512 columns of W. -/
theorem blk1_apply (k j : Fin 512) :
    iblk m c 1 t (ix2 k j) = argW m c (ix2 k (Spec.chanCol j)) := by
  obtain ⟨-, -, -, e0, e1, -⟩ := idx_facts t
  rw [← wx_apply m c k j]
  show winWx m c (((cfg0.win 1).blk t).view.emb (ix2 k j)) = winWx m c (ix2 k j)
  refine congrArg _ (funext fun a => Fin.ext ?_)
  match a with
  | ⟨0, _⟩ => show win0_1.index t (0 : Fin 2) * 512 + 1 * k.val = k.val; omega
  | ⟨1, _⟩ => show win0_1.index t (1 : Fin 2) * 512 + 1 * j.val = j.val; omega

include hn in
/-- The side column's entry (u, k, v) is the side input's share at batch entry n and channel k, bias included. -/
theorem blk2_apply (u : Fin 1) (k : Fin 512) (v : Fin 1) :
    iblk m c 2 t (ix3 u k v)
      = (∑ j : Fin 256, argS m c (ix2 n j)
            * argW m c (ix2 k (Spec.auxCol j)))
          + argB m c (ix1 k) := by
  obtain ⟨-, -, -, -, -, e0, e1, e2, -⟩ := idx_facts t
  rw [← sw_apply m c n k v]
  show winSw m c (((cfg0.win 2).blk t).view.emb (ix3 u k v)) = winSw m c (ix3 n k v)
  refine congrArg _ (funext fun a => Fin.ext ?_)
  have hu : u.val = 0 := by omega
  match a with
  | ⟨0, _⟩ => show win0_2.index t (0 : Fin 3) * 1 + 1 * u.val = n.val; omega
  | ⟨1, _⟩ => show win0_2.index t (1 : Fin 3) * 512 + 1 * k.val = k.val; omega
  | ⟨2, _⟩ => show win0_2.index t (2 : Fin 3) * 1 + 1 * v.val = v.val; omega

/-- The scale's block is the whole column. -/
theorem blk3_apply (k : Fin 512) (u : Fin 1) :
    iblk m c 3 t (ix2 k u) = argG m c (ix1 k) := by
  obtain ⟨-, -, -, -, -, -, -, -, e0, e1, -⟩ := idx_facts t
  rw [← g_apply m c k u]
  show winG m c (((cfg0.win 3).blk t).view.emb (ix2 k u)) = winG m c (ix2 k u)
  refine congrArg _ (funext fun a => Fin.ext ?_)
  match a with
  | ⟨0, _⟩ => show win0_3.index t (0 : Fin 2) * 512 + 1 * k.val = k.val; omega
  | ⟨1, _⟩ => show win0_3.index t (1 : Fin 2) * 1 + 1 * u.val = u.val; omega

/-- The shift's block is the whole column. -/
theorem blk4_apply (k : Fin 512) (u : Fin 1) :
    iblk m c 4 t (ix2 k u) = argBeta m c (ix1 k) := by
  obtain ⟨-, -, -, -, -, -, -, -, -, -, e0, e1, -⟩ := idx_facts t
  rw [← beta_apply m c k u]
  show winBeta m c (((cfg0.win 4).blk t).view.emb (ix2 k u)) = winBeta m c (ix2 k u)
  refine congrArg _ (funext fun a => Fin.ext ?_)
  match a with
  | ⟨0, _⟩ => show win0_4.index t (0 : Fin 2) * 512 + 1 * k.val = k.val; omega
  | ⟨1, _⟩ => show win0_4.index t (1 : Fin 2) * 1 + 1 * u.val = u.val; omega

/-- The slope's block is its one entry. -/
theorem blk5_apply (u v : Fin 1) :
    iblk m c 5 t (ix2 u v) = argA m c ix0 := by
  obtain ⟨-, -, -, -, -, -, -, -, -, -, -, -, e0, e1, -⟩ := idx_facts t
  rw [← slope_apply m c u v]
  show winA m c (((cfg0.win 5).blk t).view.emb (ix2 u v)) = winA m c (ix2 u v)
  refine congrArg _ (funext fun a => Fin.ext ?_)
  match a with
  | ⟨0, _⟩ => show win0_5.index t (0 : Fin 2) * 1 + 1 * u.val = u.val; omega
  | ⟨1, _⟩ => show win0_5.index t (1 : Fin 2) * 1 + 1 * v.val = v.val; omega

include hn hp in
/-- What the body stores at (u, o, q) at point t: the layer's residual output at batch entry n, channel o, position p. -/
theorem point_apply (u : Fin 1) (o : Fin 512) :
    k0_pay1 (F := Ideal) (k0_pay2 (F := Ideal) (iblk m c 0 t))
        (k0_pay3 (F := Ideal) (iblk m c 0 t) (iblk m c 1 t) (iblk m c 2 t) (iblk m c 5 t) (iblk m c 3 t)) (iblk m c 4 t) (ix3 u o q)
      = Spec.G (argX m c) (argS m c) (argW m c) (argB m c) (argA m c) (argG m c) (argBeta m c) n o (tOf p) (hOf p) := by
  refine (Body.stored_apply (iblk m c 0 t) (iblk m c 1 t) (iblk m c 2 t) (iblk m c 3 t) (iblk m c 4 t) (iblk m c 5 t) u o q).trans ?_
  simp only [blk0_apply m c t n p q hn hp, blk1_apply m c t, blk2_apply m c t n hn, blk3_apply m c t, blk4_apply m c t,
    blk5_apply m c t]
  rfl

end Point

/-- WHAT POINT t WRITES BACK is block t of the output function. -/
theorem flushed_eq (c : Dev nD) (t : Fin cfg0.N) :
    (dats m 0 c).flushed 6 t = ((cfg0.win 6).blk t).view.read (Elt Ideal) (K3 m c) := by
  show (cfg0.win 6).cut (grid0.coords t) ((dats m 0 c).after 6 t) = _
  rw [after0_6]
  unfold out0_6
  rw [View.canon_unit_zero hz3]
  simp only [View.ld_unit_zero (S := S1x512x2048) hz3, View.ld_unit_zero (S := S512x512) hz2,
    View.ld_unit_zero (S := S1x512x1) hz3, View.ld_unit_zero (S := S1x1) hz2, View.ld_unit_zero (S := S512x1) hz2]
  have hf := idx_facts t
  funext j
  obtain ⟨u, o, q, rfl⟩ : ∃ (u : Fin 1) (o : Fin 512) (q : Fin 2048), j = ix3 u o q := ⟨j 0, j 1, j 2, eq_ix3 j⟩
  have hq : q.val < 2048 := q.isLt
  have hu : u.val = 0 := by omega
  have hn4 : win0_6.index t (0 : Fin 3) < 4 := by omega
  have hp4 : win0_6.index t (2 : Fin 3) * 2048 + q.val < 16384 := by omega
  refine (point_apply m c t ⟨win0_6.index t (0 : Fin 3), hn4⟩ ⟨win0_6.index t (2 : Fin 3) * 2048 + q.val, hp4⟩ q rfl rfl u o).trans ?_
  have he : ((cfg0.win 6).blk t).view.emb (ix3 u o q)
      = (ix3 (⟨win0_6.index t (0 : Fin 3), hn4⟩ : Fin 4) o (⟨win0_6.index t (2 : Fin 3) * 2048 + q.val, hp4⟩ : Fin 16384) : S4x512x16384.Idx) := by
    funext a
    apply Fin.ext
    match a with
    | ⟨0, _⟩ => show win0_6.index t (0 : Fin 3) * 1 + 1 * u.val = win0_6.index t (0 : Fin 3); omega
    | ⟨1, _⟩ => show win0_6.index t (1 : Fin 3) * 512 + 1 * o.val = o.val; omega
    | ⟨2, _⟩ => show win0_6.index t (2 : Fin 3) * 2048 + 1 * q.val = win0_6.index t (2 : Fin 3) * 2048 + q.val; omega
  show _ = K3 m c (((cfg0.win 6).blk t).view.emb (ix3 u o q))
  rw [he]
  rfl

/-- An index of the output array is in point t's block iff each coordinate is in the block's range on its axis. -/
theorem mem_blk (t : Fin cfg0.N) (i : S4x512x16384.Idx) :
    i ∈ ((cfg0.win 6).blk t).view.set ↔ ∀ a : Fin 3, win0_6.index t a * S1x512x2048.size a ≤ (i a).val
      ∧ (i a).val < win0_6.index t a * S1x512x2048.size a + S1x512x2048.size a := by
  show i ∈ ((View.whole main_v13).slice (win0_6.rect t)).set ↔ _
  rw [View.set_slice_whole, Rect.mem_set_unit]
  exact Iff.rfl

/-- The blocks tile the output array: index (n, o, p) lies in the block of the point (n, p / 2048). -/
theorem cover (i : S4x512x16384.Idx) :
    ∃ t : Fin cfg0.N, (cfg0.win 6).flush t = true ∧ i ∈ ((cfg0.win 6).blk t).view.set := by
  have hi0 : (i 0).val < 4 := (i 0).isLt
  have hi1 : (i 1).val < 512 := (i 1).isLt
  have hi2 : (i 2).val < 16384 := (i 2).isLt
  obtain ⟨t, ht⟩ := idx_onto ⟨(i 0).val, hi0⟩ ⟨(i 2).val / 2048, by omega⟩
  have q0 : win0_6.index t (0 : Fin 3) = (i 0).val := congrFun ht 0
  have q1 : win0_6.index t (1 : Fin 3) = 0 := congrFun ht 1
  have q2 : win0_6.index t (2 : Fin 3) = (i 2).val / 2048 := congrFun ht 2
  refine ⟨t, flush0_6 t, ?_⟩
  rw [mem_blk]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 512 ≤ (i 1).val ∧ (i 1).val < win0_6.index t (1 : Fin 3) * 512 + 512
    omega
  | ⟨2, _⟩ =>
    show win0_6.index t (2 : Fin 3) * 2048 ≤ (i 2).val ∧ (i 2).val < win0_6.index t (2 : Fin 3) * 2048 + 2048
    omega

/-- THE OUTPUT ARRAY after the run is the output function. -/
theorem final (c : Dev nD) : (dats m 0 c).arrAt 6 cfg0.N = K3 m c :=
  (dats m 0 c).arrAt_eq_of_cover 6 (K3 m c) (fun t _ => flushed_eq m c t) cover

end Cert.KernelIdeal.Blocks

end
-- ==== Proof.Result.lean ====
/-
  The kernel program's run, with its result named.

  After the region the program reshapes the 4 × 512 × 16384 output array back to 4 × 512 × 256 × 64: entry (n, o, t, h) is the
  output array's entry at position p = 64 t + h, which is the layer's residual output at batch entry n, channel o and
  position (t, h). So the program ends with its result at the specification array, its arguments unchanged.
-/
import proofs.«123685_j40252433498680_2_alg».proof.Proof.Gen.KernelIdeal.Frame
import proofs.«123685_j40252433498680_2_alg».proof.Proof.Spec
import proofs.«123685_j40252433498680_2_alg».proof.Proof.Arrays
import proofs.«123685_j40252433498680_2_alg».proof.Proof.Blocks
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.KernelIdeal.Arrays Cert.KernelIdeal.Blocks Idealize.ShloMosaic.StableHlo

variable (m : (ℓ : Loc nD τ sig) → Buf (Elt Ideal) ℓ) (ρ : Dev nD → PrngReg)

/-- The position p = 64 t + h. -/
def pos (t : Fin 256) (h : Fin 64) : Fin 16384 := ⟨t.val * 64 + h.val, by have := t.isLt; have := h.isLt; omega⟩

theorem tOf_pos (t : Fin 256) (h : Fin 64) : tOf (pos t h) = t :=
  Fin.ext (by show (t.val * 64 + h.val) / 64 = t.val; have := h.isLt; omega)

theorem hOf_pos (t : Fin 256) (h : Fin 64) : hOf (pos t h) = h :=
  Fin.ext (by show (t.val * 64 + h.val) % 64 = h.val; have := h.isLt; omega)

/-- The specification array of the argument arrays on core c. -/
abbrev spec (c : Dev nD) : FVec Ideal S4x512x256x64 .f32 :=
  Spec.Garr (argX m c) (argS m c) (argW m c) (argB m c) (argA m c) (argG m c) (argBeta m c)

/-- The output array reshaped to four axes is the specification array. -/
theorem reshape_K3 (c : Dev nD) :
    shapeCast S4x512x256x64 (K3 m c) shapeCasts_S4x512x16384_S4x512x256x64 = spec m c := by
  funext i
  obtain ⟨n, o, t, h, rfl⟩ : ∃ (n : Fin 4) (o : Fin 512) (t : Fin 256) (h : Fin 64), i = ix4 n o t h :=
    ⟨i 0, i 1, i 2, i 3, eq_ix4 i⟩
  rw [shapeCast_apply (K3 m c) shapeCasts_S4x512x16384_S4x512x256x64 (ix4 n o t h) (ix3 n o (pos t h)) (by
    show (S4x512x16384.rowMajor (ix3 n o (pos t h))).val = (S4x512x256x64.rowMajor (ix4 n o t h)).val
    rw [Shape.rowMajor_val_three, Shape.rowMajor_val_four]
    show (n.val * 512 + o.val) * 16384 + (t.val * 64 + h.val) = ((n.val * 512 + o.val) * 256 + t.val) * 64 + h.val
    omega)]
  show Spec.G _ _ _ _ _ _ _ n o (tOf (pos t h)) (hOf (pos t h)) = Spec.G _ _ _ _ _ _ _ n o t h
  rw [tOf_pos, hOf_pos]

/-- What the operation after the region leaves in the result: the specification array. -/
theorem tail_eq (c : Dev nD) :
    Pipeline.afterTail₀ cfgs (dats m) 0 (V0 m) [hostOps1] c main_v14 = spec m c := by
  have hw : Pipeline.withArrays (cfgs 0).spec c (V0 m c) (fun w => (dats m 0 c).arrAt w (cfgs 0).N) (Proc.devRef .tc main_v13)
      = K3 m c :=
    (Pipeline.withArrays_arr spec0 launch0.win.arr_inj c _ _ 6).trans (final m c)
  unfold Pipeline.afterTail₀
  show StableHlo.after hostOps1 _ (Proc.devRef .tc main_v14) = _
  after_results
  rw [hw]
  exact reshape_K3 m c

/-- THE RUN: every weakly fair execution terminates with the result at the specification array and the arguments unchanged. -/
theorem run : θ_run defs (onTc (τ := τ) (main (F := Ideal))) ⟨m, fun _ => 0, ρ⟩ (fun r => ∀ c : Dev nD,
      r.2.mem ((c.tc : Thread nD τ).loc main_v14) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Result

end
-- ==== Proof.lean ====
/-
  The kernel (a fused linear layer, one-slope rectifier, normalisation over the channels, scale, shift and residual add,
  computed block by block in channel-first layout) against its reference (the same layer written channel last, with the
  side input concatenated to the input before one contraction).

  At the exact instance both programs end with the same array: at batch entry n, channel o and position (t, h),
      x(o) + normalised(z)(o) · g(o) + β(o),   z(k) = rectifier_a((∑_c W(k, c) · x(c)) + (∑_j s(j) · W(k, 512 + j)) + b(k)),
  x the input's column at (n, ·, t, h), s the side input's row n. The kernel reaches it with the contraction split at column
  512 (a sum over 768 columns is the sum over the first 512 plus the sum over the last 256) and with the variance taken as the
  mean of the squares less the squared mean; the reference takes the mean of the squared deviations. The two variances agree
  for real activations, and the activations are real because the precondition makes every input finite.

  The three frames are the generated ones (the reference's is its generated run with the result dropped); no operation was
  rewritten by the idealisation, so that claim is trivial.
-/
import proofs.«123685_j40252433498680_2_alg».proof.Defs
import proofs.«123685_j40252433498680_2_alg».proof.Proof.Gen.Kernel
import proofs.«123685_j40252433498680_2_alg».proof.Proof.Gen.Kernel.Skeleton
import proofs.«123685_j40252433498680_2_alg».proof.Proof.Gen.Kernel.Launch
import proofs.«123685_j40252433498680_2_alg».proof.Proof.Gen.Kernel.Points
import proofs.«123685_j40252433498680_2_alg».proof.Proof.Gen.Kernel.Frame
import proofs.«123685_j40252433498680_2_alg».proof.Proof.Gen.KernelIdeal
import proofs.«123685_j40252433498680_2_alg».proof.Proof.Gen.KernelIdeal.Skeleton
import proofs.«123685_j40252433498680_2_alg».proof.Proof.Gen.KernelIdeal.Launch
import proofs.«123685_j40252433498680_2_alg».proof.Proof.Gen.KernelIdeal.Points
import proofs.«123685_j40252433498680_2_alg».proof.Proof.Gen.KernelIdeal.Frame
import proofs.«123685_j40252433498680_2_alg».proof.Proof.Gen.ReferenceIdeal
import proofs.«123685_j40252433498680_2_alg».proof.Proof.Gen.Pre_finite_inputs
import proofs.«123685_j40252433498680_2_alg».proof.Proof.Gen.ReferenceIdeal.Run
import proofs.«123685_j40252433498680_2_alg».proof.Proof.Gen.ReferenceIdeal.Read
import proofs.«123685_j40252433498680_2_alg».proof.Proof.Finite
import proofs.«123685_j40252433498680_2_alg».proof.Proof.RefIsSpec
import proofs.«123685_j40252433498680_2_alg».proof.Proof.Result
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the inputs finite, both programs end at the specification array of the
    arguments: the kernel by its run read block by block, the reference by its run read operation by operation and the
    agreement of the two forms of the variance on real activations. -/
theorem algebraic : Cert.algebraic_KernelIdeal_ReferenceIdeal := by
  intro m ρ m' ρ' hpre hagree
  refine ⟨fun c => Cert.KernelIdeal.Result.spec m c, Cert.KernelIdeal.Result.run m ρ, ?_⟩
  refine (θ_run Cert.ReferenceIdeal.defs _ _).mono (fun r h c => ⟨?_, (h c).2⟩)
    (Cert.ReferenceIdeal.Value.run (F := Ideal) m' ρ')
  obtain ⟨a0, a1, -, -, -, a5, a6, a7, a8, a9⟩ := hagree c
  obtain ⟨r0, r1, r5, r6, r7⟩ := Cert.Finite.reals_of_finite_inputs _ _ _ _ _ _ _ _ _ _ (hpre c)
  rw [(h c).1, Cert.ReferenceIdeal.Read.val_main_v67_eq, a0, a1, a5, a6, a7, a8, a9]
  exact Cert.RefValue.ref_eq_spec _ _ _ _ _ _ _ r0 r1 r5 r6 r7

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
